-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S2048x1024 .f32) (main_arg19 : FVec F S2048x1024 .f32) (main_v83 : IVec S_ 1) (main_v84 : FVec F S2048x1024 .f32) (main_cst_32 : FVec F S_ .f32) : IVec S_ 1 :=
  let main_v85 : FVec F S2048x1024 .f32 := broadcastInDim S2048x1024 ![] bcast_S_S2048x1024 main_cst_32
  let main_v86 : IVec S2048x1024 1 := cmpf .olt main_v84 main_v85
  let main_c_33 : IVec S_ 1 := constantI S_ 1 1#1
  let main_v87 : IVec S_ 1 := (fun x v => Host.reduce IntOp.andi x v reducesTo_S2048x1024_S_d0_1 h_S_) main_v86 main_c_33
  let main_v88 : IVec S_ 1 := andi main_v83 main_v87
  let main_v89 : FVec F S2048x1024 .f32 := Host.absf main_arg18
  let main_cst_34 : FVec F S_ .f32 := constant S_ .f32 0x7F800000#32
  let main_v90 : FVec F S2048x1024 .f32 := broadcastInDim S2048x1024 ![] bcast_S_S2048x1024 main_cst_34
  let main_v91 : IVec S2048x1024 1 := cmpf .olt main_v89 main_v90
  let main_c_35 : IVec S_ 1 := constantI S_ 1 1#1
  let main_v92 : IVec S_ 1 := (fun x v => Host.reduce IntOp.andi x v reducesTo_S2048x1024_S_d0_1 h_S_) main_v91 main_c_35
  let main_v93 : IVec S_ 1 := andi main_v88 main_v92
  let main_v94 : FVec F S2048x1024 .f32 := Host.absf main_arg19
  let main_cst_36 : FVec F S_ .f32 := constant S_ .f32 0x7F800000#32
  let main_v95 : FVec F S2048x1024 .f32 := broadcastInDim S2048x1024 ![] bcast_S_S2048x1024 main_cst_36
  let main_v96 : IVec S2048x1024 1 := cmpf .olt main_v94 main_v95
  let main_c_37 : IVec S_ 1 := constantI S_ 1 1#1
  let main_v97 : IVec S_ 1 := (fun x v => Host.reduce IntOp.andi x v reducesTo_S2048x1024_S_d0_1 h_S_) main_v96 main_c_37
  let main_v98 : IVec S_ 1 := andi main_v93 main_v97
  main_v98

def fn_part4 {F : FTy → Type} [FloatOps F] (main_arg14 : FVec F S1024 .f32) (main_arg15 : FVec F S2048x1024 .f32) (main_arg16 : FVec F S2048x1024 .f32) (main_arg17 : FVec F S2048x1024 .f32) (main_arg18 : FVec F S2048x1024 .f32) (main_arg19 : FVec F S2048x1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S2048x1024 .f32 := Host.absf main_arg15
  let main_cst_28 : FVec F S_ .f32 := constant S_ .f32 0x7F800000#32
  let main_v75 : FVec F S2048x1024 .f32 := broadcastInDim S2048x1024 ![] bcast_S_S2048x1024 main_cst_28
  let main_v76 : IVec S2048x1024 1 := cmpf .olt main_v74 main_v75
  let main_c_29 : IVec S_ 1 := constantI S_ 1 1#1
  let main_v77 : IVec S_ 1 := (fun x v => Host.reduce IntOp.andi x v reducesTo_S2048x1024_S_d0_1 h_S_) main_v76 main_c_29
  let main_v78 : IVec S_ 1 := andi main_v73 main_v77
  let main_v79 : FVec F S2048x1024 .f32 := Host.absf main_arg16
  let main_cst_30 : FVec F S_ .f32 := constant S_ .f32 0x7F800000#32
  let main_v80 : FVec F S2048x1024 .f32 := broadcastInDim S2048x1024 ![] bcast_S_S2048x1024 main_cst_30
  let main_v81 : IVec S2048x1024 1 := cmpf .olt main_v79 main_v80
  let main_c_31 : IVec S_ 1 := constantI S_ 1 1#1
  let main_v82 : IVec S_ 1 := (fun x v => Host.reduce IntOp.andi x v reducesTo_S2048x1024_S_d0_1 h_S_) main_v81 main_c_31
  let main_v83 : IVec S_ 1 := andi main_v78 main_v82
  let main_v84 : FVec F S2048x1024 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S1024 .f32) (main_arg12 : FVec F S1024 .f32) (main_arg13 : FVec F S1024 .f32) (main_arg14 : FVec F S1024 .f32) (main_arg15 : FVec F S2048x1024 .f32) (main_arg16 : FVec F S2048x1024 .f32) (main_arg17 : FVec F S2048x1024 .f32) (main_arg18 : FVec F S2048x1024 .f32) (main_arg19 : FVec F S2048x1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_arg18 main_arg19 main_v63 main_v67

def fn_part2 {F : FTy → Type} [FloatOps F] (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_arg15 : FVec F S2048x1024 .f32) (main_arg16 : FVec F S2048x1024 .f32) (main_arg17 : FVec F S2048x1024 .f32) (main_arg18 : FVec F S2048x1024 .f32) (main_arg19 : FVec F S2048x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_arg15 : FVec F S2048x1024 .f32) (main_arg16 : FVec F S2048x1024 .f32) (main_arg17 : FVec F S2048x1024 .f32) (main_arg18 : FVec F S2048x1024 .f32) (main_arg19 : FVec F S2048x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S2048x1024 .f32) (main_arg1 : FVec F S2048x1024 .f32) (main_arg2 : FVec F S2048x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_arg15 : FVec F S2048x1024 .f32) (main_arg16 : FVec F S2048x1024 .f32) (main_arg17 : FVec F S2048x1024 .f32) (main_arg18 : FVec F S2048x1024 .f32) (main_arg19 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S2048x1024 : Shape := ⟨2, ![2048, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S256x1024 : Shape := ⟨2, ![256, 1024]⟩
abbrev S256x4096 : Shape := ⟨2, ![256, 4096]⟩

abbrev nBuf : Space → Nat
  | .hbm => 32
  | .vmem => 29
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S4096x1024, .f32⟩
  | .hbm, ⟨21, _⟩ => ⟨S4096x1024, .bf16⟩
  | .hbm, ⟨22, _⟩ => ⟨S1024x1024, .bf16⟩
  | .hbm, ⟨23, _⟩ => ⟨S1024x1024, .bf16⟩
  | .hbm, ⟨24, _⟩ => ⟨S1024x1024, .bf16⟩
  | .hbm, ⟨25, _⟩ => ⟨S1024x1024, .bf16⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S2048x1024, .f32⟩
  | .hbm, ⟨31, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S4096x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10_0 : Ref sig .tc := ⟨.hbm, 30, rfl⟩
abbrev main_v10_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  slices_S256x4096_o0_0_S256x1024 : S256x4096.Slices ![0, 0] S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S4096x1024_S256x4096_1_1_0_0_n_n_wf : DotDims.WF S256x1024 S4096x1024 S256x4096 [1] [1] [0] [0] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .f32 = 32 ∨ (Rect.block (s := S2048x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S2048x1024.size a
  hwx0_1 : ∀ i : grid0.Coords, EltTy.bits .f32 = 32 ∨ (Rect.block (s := S2048x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S2048x1024.size a
  hwx0_2 : ∀ i : grid0.Coords, EltTy.bits .f32 = 32 ∨ (Rect.block (s := S2048x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S2048x1024.size a
  hwx0_3 : ∀ i : grid0.Coords, EltTy.bits .f32 = 32 ∨ (Rect.block (s := S2048x1024) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S2048x1024.size a
  hwx0_4 : ∀ i : grid0.Coords, EltTy.bits .f32 = 32 ∨ (Rect.block (s := S2048x1024) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S2048x1024.size a
  hwx0_5 : ∀ i : grid0.Coords, EltTy.bits .f32 = 32 ∨ (Rect.block (s := S2048x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S2048x1024.size a
  hwx0_6 : ∀ i : grid0.Coords, EltTy.bits .f32 = 32 ∨ (Rect.block (s := S2048x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S2048x1024.size a
  hwx0_7 : ∀ i : grid0.Coords, EltTy.bits .f32 = 32 ∨ (Rect.block (s := S2048x1024) S256x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4096x1024.size a ≤ S4096x1024.size a
  hwx0_8 : ∀ i : grid0.Coords, EltTy.bits .bf16 = 32 ∨ (Rect.block (s := S4096x1024) S4096x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1024.size a ≤ S1024x1024.size a
  hwx0_11 : ∀ i : grid0.Coords, EltTy.bits .bf16 = 32 ∨ (Rect.block (s := S1024x1024) S1024x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1024.size a ≤ S1024x1024.size a
  hwx0_12 : ∀ i : grid0.Coords, EltTy.bits .bf16 = 32 ∨ (Rect.block (s := S1024x1024) S1024x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1024.size a ≤ S1x1024.size a
  hwx0_15 : ∀ i : grid0.Coords, EltTy.bits .f32 = 32 ∨ (Rect.block (s := S1x1024) S1x1024.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1024.size a ≤ S1x1024.size a
  hwx0_16 : ∀ i : grid0.Coords, EltTy.bits .f32 = 32 ∨ (Rect.block (s := S1x1024) S1x1024.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S256x1024.size a ≤ S2048x1024.size a
  hwx0_17 : ∀ i : grid0.Coords, EltTy.bits .f32 = 32 ∨ (Rect.block (s := S2048x1024) S256x1024.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S256x1024.size a ≤ S2048x1024.size a
  hwx0_18 : ∀ i : grid0.Coords, EltTy.bits .f32 = 32 ∨ (Rect.block (s := S2048x1024) S256x1024.size (cc0_transform_18 i) (hinb0_18 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg15) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg16) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg17) S256x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg18) S256x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg19) S256x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1) S4096x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1024x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1024x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v8) S1x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v9) S1x1024.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v10_0) S256x1024.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v10_1) S256x1024.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S1024x1024 : Shape := ⟨2, ![1024, 1024]⟩
abbrev S1024 : Shape := ⟨1, ![1024]⟩
abbrev S1x2048x1024 : Shape := ⟨3, ![1, 2048, 1024]⟩
abbrev S4x2048x1024 : Shape := ⟨3, ![4, 2048, 1024]⟩
abbrev S1x1024x1024 : Shape := ⟨3, ![1, 1024, 1024]⟩
abbrev S4x1024x1024 : Shape := ⟨3, ![4, 1024, 1024]⟩
abbrev S4x1024x2048 : Shape := ⟨3, ![4, 1024, 2048]⟩
abbrev S1x1024 : Shape := ⟨2, ![1, 1024]⟩
abbrev S_ : Shape := ⟨0, ![]⟩

abbrev nBuf : Space → Nat
  | .hbm => 94
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S1x2048x1024, .f32⟩
  | .hbm, ⟨25, _⟩ => ⟨S1x2048x1024, .f32⟩
  | .hbm, ⟨26, _⟩ => ⟨S1x2048x1024, .f32⟩
  | .hbm, ⟨27, _⟩ => ⟨S1x2048x1024, .f32⟩
  | .hbm, ⟨28, _⟩ => ⟨S4x2048x1024, .f32⟩
  | .hbm, ⟨29, _⟩ => ⟨S1x1024x1024, .f32⟩
  | .hbm, ⟨30, _⟩ => ⟨S1x1024x1024, .f32⟩
  | .hbm, ⟨31, _⟩ => ⟨S1x1024x1024, .f32⟩
  | .hbm, ⟨32, _⟩ => ⟨S1x1024x1024, .f32⟩
  | .hbm, ⟨33, _⟩ => ⟨S4x1024x1024, .f32⟩
  | .hbm, ⟨34, _⟩ => ⟨S1x1024x1024, .f32⟩
  | .hbm, ⟨35, _⟩ => ⟨S1x1024x1024, .f32⟩
  | .hbm, ⟨36, _⟩ => ⟨S1x1024x1024, .f32⟩
  | .hbm, ⟨37, _⟩ => ⟨S1x1024x1024, .f32⟩
  | .hbm, ⟨38, _⟩ => ⟨S4x1024x1024, .f32⟩
  | .hbm, ⟨39, _⟩ => ⟨S4x1024x2048, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | .hbm, ⟨43, _⟩ => ⟨S1x2048x1024, .f32⟩
  | .hbm, ⟨44, _⟩ => ⟨S2048x1024, .f32⟩
  | .hbm, ⟨45, _⟩ => ⟨S1x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048x1024, .f32⟩
  | .hbm, ⟨55, _⟩ => ⟨S2048x1024, .f32⟩
  | .hbm, ⟨56, _⟩ => ⟨S1x2048x1024, .f32⟩
  | .hbm, ⟨57, _⟩ => ⟨S2048x1024, .f32⟩
  | .hbm, ⟨58, _⟩ => ⟨S1x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S2048x1024, .f32⟩
  | .hbm, ⟨65, _⟩ => ⟨S2048x1024, .f32⟩
  | .hbm, ⟨66, _⟩ => ⟨S_, .f32⟩
  | .hbm, ⟨67, _⟩ => ⟨S2048x1024, .f32⟩
  | .hbm, ⟨68, _⟩ => ⟨S2048x1024, .f32⟩
  | .hbm, ⟨69, _⟩ => ⟨S1x2048x1024, .f32⟩
  | .hbm, ⟨70, _⟩ => ⟨S2048x1024, .f32⟩
  | .hbm, ⟨71, _⟩ => ⟨S1x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S1x2048x1024, .f32⟩
  | .hbm, ⟨77, _⟩ => ⟨S2048x1024, .f32⟩
  | .hbm, ⟨78, _⟩ => ⟨S1x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S_, .f32⟩
  | .hbm, ⟨84, _⟩ => ⟨S2048x1024, .f32⟩
  | .hbm, ⟨85, _⟩ => ⟨S2048x1024, .f32⟩
  | .hbm, ⟨86, _⟩ => ⟨S_, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst : Ref sig .tc := ⟨.hbm, 50, rfl⟩
abbrev main_v30 : Ref sig .tc := ⟨.hbm, 51, rfl⟩
abbrev main_v31 : Ref sig .tc := ⟨.hbm, 52, rfl⟩
abbrev main_cst_0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_1 : Ref sig .tc := ⟨.hbm, 63, rfl⟩
abbrev main_v41 : Ref sig .tc := ⟨.hbm, 64, rfl⟩
abbrev main_v42 : Ref sig .tc := ⟨.hbm, 65, rfl⟩
abbrev main_cst_2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_3 : Ref sig .tc := ⟨.hbm, 83, rfl⟩
abbrev main_v59 : Ref sig .tc := ⟨.hbm, 84, rfl⟩
abbrev main_v60 : Ref sig .tc := ⟨.hbm, 85, rfl⟩
abbrev main_cst_4 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩

abbrev nD : Nat := 1
abbrev τ : Topo := Topo.v7x

variable {F : FTy → Type} [FloatOps F]

class Facts₀ : Prop where
  bcast_S2048x1024_S1x2048x1024_1_2 : S2048x1024.BroadcastsInDim S1x2048x1024 (![1, 2] : Fin 2 → Fin S1x2048x1024.rank)
  concatenates_S1x2048x1024_S1x2048x1024_S1x2048x1024_S1x2048x1024_S4x2048x1024_d0 : Shape.Concatenates [S1x2048x1024, S1x2048x1024, S1x2048x1024, S1x2048x1024] S4x2048x1024 0
  bcast_S1024x1024_S1x1024x1024_1_2 : S1024x1024.BroadcastsInDim S1x1024x1024 (![1, 2] : Fin 2 → Fin S1x1024x1024.rank)
  concatenates_S1x1024x1024_S1x1024x1024_S1x1024x1024_S1x1024x1024_S4x1024x1024_d0 : Shape.Concatenates [S1x1024x1024, S1x1024x1024, S1x1024x1024, S1x1024x1024] S4x1024x1024 0
  transposes_S4x1024x2048_S4x2048x1024_0_2_1 : S4x1024x2048.Transposes [0, 2, 1] S4x2048x1024
  slices_S4x2048x1024_S1x2048x1024_0_0_0 : S4x2048x1024.Slices ![0, 0, 0] S1x2048x1024
  shapeCasts_S1x2048x1024_S2048x1024 : S1x2048x1024.ShapeCasts S2048x1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S_S2048x1024 : S_.BroadcastsInDim S2048x1024 (![] : Fin 0 → Fin S2048x1024.rank)
  slices_S4x2048x1024_S1x2048x1024_1_0_0 : S4x2048x1024.Slices ![1, 0, 0] S1x2048x1024
  slices_S4x2048x1024_S1x2048x1024_2_0_0 : S4x2048x1024.Slices ![2, 0, 0] S1x2048x1024
  slices_S4x2048x1024_S1x2048x1024_3_0_0 : S4x2048x1024.Slices ![3, 0, 0] S1x2048x1024
  dot_S4x1024x1024_S2048x1024_S4x1024x2048_2_1_01_0_n_n_wf : DotDims.WF S4x1024x1024 S2048x1024 S4x1024x2048 [2] [1] [0, 1] [0] [] []
  dot_S4x2048x1024_S4x1024x1024_S4x2048x1024_2_2_1_1_0_0_wf : DotDims.WF S4x2048x1024 S4x1024x1024 S4x2048x1024 [2] [2] [1] [1] [0] [0]

variable [Facts₀]

def dot_S4x1024x1024_S2048x1024_S4x1024x2048_2_1_01_0_n_n : DotDims S4x1024x1024 S2048x1024 S4x1024x2048 where
  lhsContracting := [2]
  rhsContracting := [1]
  lhsNonContracting := [0, 1]
  rhsNonContracting := [0]
  lhsBatch := []
  rhsBatch := []
  wf := dot_S4x1024x1024_S2048x1024_S4x1024x2048_2_1_01_0_n_n_wf
def dot_S4x2048x1024_S4x1024x1024_S4x2048x1024_2_2_1_1_0_0 : DotDims S4x2048x1024 S4x1024x1024 S4x2048x1024 where
  lhsContracting := [2]
  rhsContracting := [2]
  lhsNonContracting := [1]
  rhsNonContracting := [1]
  lhsBatch := [0]
  rhsBatch := [0]
  wf := dot_S4x2048x1024_S4x1024x1024_S4x2048x1024_2_2_1_1_0_0_wf

class Facts : Prop extends Facts₀ where

variable [Facts]
-- ==== Proof.BitsEntry.lean ====
/-
  The LSTM cell's program up to its one pipelined region, and the frame claim read off a run of that region.

  Before the region the host stacks the four input-side weight matrices [1024,1024] on top of one another into one
  [4096,1024] array, changes the float format of that array and of the four recurrent weight matrices, and re-lays
  the four bias vectors [1024] as rows [1,1024]: ten lines, each writing a fresh array and none writing an argument.
  So the region finds every one of the twenty argument arrays as launched (`entry_main_argK`). Eight of them — the
  input x, the states h0 and c0 and the five dropout masks — are themselves arrays the region stages in 256-row
  tiles; it only reads them, so they end as they began; the other twelve (weights and biases) the region never
  touches. Together that is the frame claim (`frame_of`), from any run of the region to the pipeline library's post.
-/
import proofs.«144616_j22445499089342_2_alg».proof.Proof.Gen.Kernel.Launch
import proofs.«144616_j22445499089342_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore arrays when the region is entered: the launch contents after the ten host lines. -/
abbrev V (c : Dev nD) (b : Ref sig .tc) : Buf (Elt F) ((c : Thread nD τ).loc b) :=
  StableHlo.after hostOps0 (fun b => m (c, b)) b

/-- None of the ten host lines allocates. -/
theorem hostOps0_fresh : (hostOps0 : List (HloOp τ sig (Elt F))).Forall fun op => op.fresh = ∅ := by
  simp only [List.Forall]; repeat' constructor

/-- @main is those ten lines and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line before the region writes argument 0: the region finds it as launched. -/
theorem entry_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 1: the region finds it as launched. -/
theorem entry_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 2: the region finds it as launched. -/
theorem entry_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 3: the region finds it as launched. -/
theorem entry_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 4: the region finds it as launched. -/
theorem entry_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 5: the region finds it as launched. -/
theorem entry_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 6: the region finds it as launched. -/
theorem entry_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 7: the region finds it as launched. -/
theorem entry_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 8: the region finds it as launched. -/
theorem entry_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 9: the region finds it as launched. -/
theorem entry_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 10: the region finds it as launched. -/
theorem entry_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 11: the region finds it as launched. -/
theorem entry_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 12: the region finds it as launched. -/
theorem entry_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 13: the region finds it as launched. -/
theorem entry_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 14: the region finds it as launched. -/
theorem entry_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 15: the region finds it as launched. -/
theorem entry_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 16: the region finds it as launched. -/
theorem entry_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 17: the region finds it as launched. -/
theorem entry_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 18: the region finds it as launched. -/
theorem entry_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 19: the region finds it as launched. -/
theorem entry_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at grid point `t`, read off its array as the region finds it: for the eight batch-tiled
    windows rows 256·t … 256·t + 255, for the stacked weights, the recurrent weights and the bias rows the whole array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether it was fetched there or (its
    block index not having moved) at an earlier point, for any proof data whose array is the entry contents and
    whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether it was fetched there or (its
    block index not having moved) at an earlier point, for any proof data whose array is the entry contents and
    whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether it was fetched there or (its
    block index not having moved) at an earlier point, for any proof data whose array is the entry contents and
    whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether it was fetched there or (its
    block index not having moved) at an earlier point, for any proof data whose array is the entry contents and
    whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether it was fetched there or (its
    block index not having moved) at an earlier point, for any proof data whose array is the entry contents and
    whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether it was fetched there or (its
    block index not having moved) at an earlier point, for any proof data whose array is the entry contents and
    whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether it was fetched there or (its
    block index not having moved) at an earlier point, for any proof data whose array is the entry contents and
    whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, whether it was fetched there or (its
    block index not having moved) at an earlier point, for any proof data whose array is the entry contents and
    whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, whether it was fetched there or (its
    block index not having moved) at an earlier point, for any proof data whose array is the entry contents and
    whose body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, whether it was fetched there or (its
    block index not having moved) at an earlier point, for any proof data whose array is the entry contents and
    whose body leaves the block in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, whether it was fetched there or (its
    block index not having moved) at an earlier point, for any proof data whose array is the entry contents and
    whose body leaves the block in place. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, whether it was fetched there or (its
    block index not having moved) at an earlier point, for any proof data whose array is the entry contents and
    whose body leaves the block in place. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, whether it was fetched there or (its
    block index not having moved) at an earlier point, for any proof data whose array is the entry contents and
    whose body leaves the block in place. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, whether it was fetched there or (its
    block index not having moved) at an earlier point, for any proof data whose array is the entry contents and
    whose body leaves the block in place. -/
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, whether it was fetched there or (its
    block index not having moved) at an earlier point, for any proof data whose array is the entry contents and
    whose body leaves the block in place. -/
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, whether it was fetched there or (its
    block index not having moved) at an earlier point, for any proof data whose array is the entry contents and
    whose body leaves the block in place. -/
theorem before15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, whether it was fetched there or (its
    block index not having moved) at an earlier point, for any proof data whose array is the entry contents and
    whose body leaves the block in place. -/
theorem before16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region -/

/-- For any proof data whose arrays are the entry contents, a run to the pipeline library's frame post — every
    staged array at what the library computes from the proof data, every other array as the region found it — leaves
    the twenty arguments as launched: a staged input is never written back, an unstaged one is not touched, and
    either way the entry contents are the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).1 0).trans (((dats 0 c).arrAt_in 0 rfl _).trans ((hA c 0).trans (entry_main_arg0 m c))),
      ((h c).1 1).trans (((dats 0 c).arrAt_in 1 rfl _).trans ((hA c 1).trans (entry_main_arg1 m c))),
      ((h c).1 2).trans (((dats 0 c).arrAt_in 2 rfl _).trans ((hA c 2).trans (entry_main_arg2 m c))),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).2 main_arg9 (Pipeline.mem_restRefs_of main_arg9 (by decide) (by decide))).trans (entry_main_arg9 m c),
      ((h c).2 main_arg10 (Pipeline.mem_restRefs_of main_arg10 (by decide) (by decide))).trans (entry_main_arg10 m c),
      ((h c).2 main_arg11 (Pipeline.mem_restRefs_of main_arg11 (by decide) (by decide))).trans (entry_main_arg11 m c),
      ((h c).2 main_arg12 (Pipeline.mem_restRefs_of main_arg12 (by decide) (by decide))).trans (entry_main_arg12 m c),
      ((h c).2 main_arg13 (Pipeline.mem_restRefs_of main_arg13 (by decide) (by decide))).trans (entry_main_arg13 m c),
      ((h c).2 main_arg14 (Pipeline.mem_restRefs_of main_arg14 (by decide) (by decide))).trans (entry_main_arg14 m c),
      ((h c).1 3).trans (((dats 0 c).arrAt_in 3 rfl _).trans ((hA c 3).trans (entry_main_arg15 m c))),
      ((h c).1 4).trans (((dats 0 c).arrAt_in 4 rfl _).trans ((hA c 4).trans (entry_main_arg16 m c))),
      ((h c).1 5).trans (((dats 0 c).arrAt_in 5 rfl _).trans ((hA c 5).trans (entry_main_arg17 m c))),
      ((h c).1 6).trans (((dats 0 c).arrAt_in 6 rfl _).trans ((hA c 6).trans (entry_main_arg18 m c))),
      ((h c).1 7).trans (((dats 0 c).arrAt_in 7 rfl _).trans ((hA c 7).trans (entry_main_arg19 m c)))⟩) h

end Cert.Kernel.Cell

end
-- ==== Proof.BitsPoint.lean ====
/-
  One grid point of the LSTM cell's body, run on whole staging buffers.

  The body reads its seventeen input buffers whole — a 256-row tile of x, h0, c0 and of the five dropout masks, the
  stacked input-side weights [4096,1024], the four recurrent weight matrices [1024,1024], the four bias rows
  [1,1024] —, computes the four gates, the new cell state c1 = f·c0 + i·(g·maskC) and the new hidden state
  h1 = o·tanh c1 on the tile, and overwrites its two output buffers whole with h1 and c1 (it also reads each output
  buffer once before overwriting it and uses nothing of what it read). So after the body every input buffer holds
  what it held, and each output buffer holds one piece, its own whole rectangle, at the body's arithmetic
  (the generated payload terms) of the input buffers' contents: `newHidden`, `newCell`.
-/
import proofs.«144616_j22445499089342_2_alg».proof.Proof.Gen.Kernel.Launch
import proofs.«144616_j22445499089342_2_alg».proof.Proof.Gen.Kernel.Skeleton
import proofs.«144616_j22445499089342_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every buffer through its whole rectangle -/

abbrev tile : Rect S256x1024 := Rect.unit (s := S256x1024) ![0, 0] S256x1024.size inb_S256x1024_S256x1024_0_0
abbrev stackedW : Rect S4096x1024 := Rect.unit (s := S4096x1024) ![0, 0] S4096x1024.size inb_S4096x1024_S4096x1024_0_0
abbrev squareW : Rect S1024x1024 := Rect.unit (s := S1024x1024) ![0, 0] S1024x1024.size inb_S1024x1024_S1024x1024_0_0
abbrev biasRow : Rect S1x1024 := Rect.unit (s := S1x1024) ![0, 0] S1x1024.size inb_S1x1024_S1x1024_0_0

/-! ## What the body leaves in the two output buffers -/

/-- The new cell state's buffer after the body, from the input buffers' contents: one store of the whole tile,
    c1 = f·c0 + i·(tanh(pre_c)·maskC), the gates from x, h0·mask and the weights (the generated payload terms). -/
def newCell (x0 : Vec F S256x1024 .f32) (x1 : Vec F S256x1024 .f32) (x2 : Vec F S256x1024 .f32) (x3 : Vec F S256x1024 .f32) (x4 : Vec F S256x1024 .f32) (x5 : Vec F S256x1024 .f32) (x6 : Vec F S256x1024 .f32) (x7 : Vec F S256x1024 .f32) (x8 : Vec F S4096x1024 .bf16) (x9 : Vec F S1024x1024 .bf16) (x10 : Vec F S1024x1024 .bf16) (x11 : Vec F S1024x1024 .bf16) (x12 : Vec F S1024x1024 .bf16) (x13 : Vec F S1x1024 .f32) (x14 : Vec F S1x1024 .f32) (x15 : Vec F S1x1024 .f32) (x16 : Vec F S1x1024 .f32) : Vec F S256x1024 .f32 :=
  View.canon [⟨tile, k0_pay1 (k0_pay3 (View.ld x0 tile) (View.ld x8 stackedW)) (View.ld x1 tile) (View.ld x2 tile)
      (k0_pay4 (View.ld x0 tile) (View.ld x8 stackedW) (View.ld x1 tile) (View.ld x3 tile) (View.ld x9 squareW) (View.ld x13 biasRow))
      (k0_pay5 (View.ld x0 tile) (View.ld x8 stackedW) (View.ld x1 tile) (View.ld x4 tile) (View.ld x10 squareW) (View.ld x14 biasRow))
      (View.ld x5 tile) (View.ld x11 squareW) (View.ld x15 biasRow) (View.ld x7 tile)⟩]

/-- The new hidden state's buffer after the body: one store of the whole tile, h1 = o·tanh c1. -/
def newHidden (x0 : Vec F S256x1024 .f32) (x1 : Vec F S256x1024 .f32) (x2 : Vec F S256x1024 .f32) (x3 : Vec F S256x1024 .f32) (x4 : Vec F S256x1024 .f32) (x5 : Vec F S256x1024 .f32) (x6 : Vec F S256x1024 .f32) (x7 : Vec F S256x1024 .f32) (x8 : Vec F S4096x1024 .bf16) (x9 : Vec F S1024x1024 .bf16) (x10 : Vec F S1024x1024 .bf16) (x11 : Vec F S1024x1024 .bf16) (x12 : Vec F S1024x1024 .bf16) (x13 : Vec F S1x1024 .f32) (x14 : Vec F S1x1024 .f32) (x15 : Vec F S1x1024 .f32) (x16 : Vec F S1x1024 .f32) : Vec F S256x1024 .f32 :=
  View.canon [⟨tile, k0_pay2 (k0_pay3 (View.ld x0 tile) (View.ld x8 stackedW)) (View.ld x1 tile) (View.ld x2 tile)
      (k0_pay4 (View.ld x0 tile) (View.ld x8 stackedW) (View.ld x1 tile) (View.ld x3 tile) (View.ld x9 squareW) (View.ld x13 biasRow))
      (k0_pay5 (View.ld x0 tile) (View.ld x8 stackedW) (View.ld x1 tile) (View.ld x4 tile) (View.ld x10 squareW) (View.ld x14 biasRow))
      (View.ld x5 tile) (View.ld x11 squareW) (View.ld x15 biasRow) (View.ld x7 tile)
      (View.ld x6 tile) (View.ld x12 squareW) (View.ld x16 biasRow)⟩]

/-- One store of the whole tile covers the tile. -/
theorem cover_tile (p0 : Vec F S256x1024 .f32) (y : S256x1024.Idx) :
    ∃ pc ∈ ([⟨tile, p0⟩] : List (View.Piece (Elt F) S256x1024 .f32)), y ∈ pc.1.set :=
  View.cover_of_tiled [⟨tile, p0⟩] S256x1024.size (by rfl) y

/-! ## The body's triple -/

set_option maxHeartbeats 4000000 in
/-- The body on whole staging buffers, the inputs' at contents `x0 … x16` and the outputs' at anything, runs to the
    continuation holding the inputs' as they were, the hidden state's at `newHidden` and the cell state's at `newCell`. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S4096x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S256x1024 .f32) (harg18 : arg18.IsWhole) (arg19 : Memref sig .tc .vmem S256x1024 .f32) (harg19 : arg19.IsWhole)
    (x0 : Vec F S256x1024 .f32) (x1 : Vec F S256x1024 .f32) (x2 : Vec F S256x1024 .f32) (x3 : Vec F S256x1024 .f32) (x4 : Vec F S256x1024 .f32) (x5 : Vec F S256x1024 .f32) (x6 : Vec F S256x1024 .f32) (x7 : Vec F S256x1024 .f32) (x8 : Vec F S4096x1024 .bf16) (x9 : Vec F S1024x1024 .bf16) (x10 : Vec F S1024x1024 .bf16) (x11 : Vec F S1024x1024 .bf16) (x12 : Vec F S1024x1024 .bf16) (x13 : Vec F S1x1024 .f32) (x14 : Vec F S1x1024 .f32) (x15 : Vec F S1x1024 .f32) (x16 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (newHidden x0 x1 x2 x3 x4 x5 x6 x7 x8 x9 x10 x11 x12 x13 x14 x15 x16) ∗ owns (c : Thread nD τ) arg19 fullShare (newCell x0 x1 x2 x3 x4 x5 x6 x7 x8 x9 x10 x11 x12 x13 x14 x15 x16)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    try dsimp only
    exact View.read_writes_eq_canon _ _ _ (cover_tile _)
  iexists _; isplitr
  swap; · iexact H18
  ipureintro
  try dsimp only
  exact View.read_writes_eq_canon _ _ _ (cover_tile _)

end Cert.Kernel.Cell

end
-- ==== Proof.BitsRun.lean ====
/-
  The run of the LSTM cell's program: the pipeline's proof data, the body obligation at a generic grid point, and
  from them every weakly fair execution to the pipeline library's frame post, hence the frame claim.

  The proof data say, per core: the arrays are what the region finds at its entry; after the body at point `t`
  every input window's buffer still holds its block there, the hidden state's buffer holds `newHidden` and the cell
  state's `newCell` of the seventeen input blocks at `t`; nothing is owed and every share is whole. The eight grid
  points are independent: no output is read back and nothing is carried from one point to the next.
-/
import proofs.«144616_j22445499089342_2_alg».proof.Proof.BitsEntry
import proofs.«144616_j22445499089342_2_alg».proof.Proof.BitsPoint
import Idealize.ShloMosaic.Lib.Pipeline.FrameBody
import Idealize.ShloMosaic.Lib.Ring
import Idealize.ShloMosaic.Lib.Tactic

set_option maxRecDepth 16384

noncomputable section

namespace Cert.Kernel.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => newHidden (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨18, _⟩ => newCell (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 19, h⟩ => absurd h (Nat.not_lt.2 (Nat.le_add_left _ _))
  Φ _ := Pipeline.ΦA spec0 c
  q _ := fullShare
  owed _ := 0

/-- The proof data's arrays are the entry contents (projected, never unfolded). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = newHidden (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after18 (c : Dev nD) (t : Fin cfg0.N) : (dats m 0 c).after 18 t = newCell (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d
theorem before14 (c : Dev nD) (t : Fin cfg0.N) (d) : (dats m 0 c).before 14 t d = iblk m c 14 t :=
  before14_of m (dats m 0 c) (A_eq m c 14) (after14 m c) t d
theorem before15 (c : Dev nD) (t : Fin cfg0.N) (d) : (dats m 0 c).before 15 t d = iblk m c 15 t :=
  before15_of m (dats m 0 c) (A_eq m c 15) (after15 m c) t d
theorem before16 (c : Dev nD) (t : Fin cfg0.N) (d) : (dats m 0 c).before 16 t d = iblk m c 16 t :=
  before16_of m (dats m 0 c) (A_eq m c 16) (after16 m c) t d

/-! ## The body obligation, at a generic point -/

/-- What the body is called with at point `t`, the nineteen windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

set_option maxHeartbeats 2000000 in
/-- The body at any point: the input buffers hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every staged array ending at
    what the library computes from the proof data and every other array as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim at any float instance: the program runs to the end and its twenty argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

end Cert.Kernel.Cell

end
-- ==== Proof.IdealEntry.lean ====
/-
  The LSTM cell's program up to its one pipelined region, and the frame claim read off a run of that region.

  Before the region the host stacks the four input-side weight matrices [1024,1024] on top of one another into one
  [4096,1024] array, changes the float format of that array and of the four recurrent weight matrices, and re-lays
  the four bias vectors [1024] as rows [1,1024]: ten lines, each writing a fresh array and none writing an argument.
  So the region finds every one of the twenty argument arrays as launched (`entry_main_argK`). Eight of them — the
  input x, the states h0 and c0 and the five dropout masks — are themselves arrays the region stages in 256-row
  tiles; it only reads them, so they end as they began; the other twelve (weights and biases) the region never
  touches. Together that is the frame claim (`frame_of`), from any run of the region to the pipeline library's post.
-/
import proofs.«144616_j22445499089342_2_alg».proof.Proof.Gen.KernelIdeal.Launch
import proofs.«144616_j22445499089342_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore arrays when the region is entered: the launch contents after the ten host lines. -/
abbrev V (c : Dev nD) (b : Ref sig .tc) : Buf (Elt F) ((c : Thread nD τ).loc b) :=
  StableHlo.after hostOps0 (fun b => m (c, b)) b

/-- None of the ten host lines allocates. -/
theorem hostOps0_fresh : (hostOps0 : List (HloOp τ sig (Elt F))).Forall fun op => op.fresh = ∅ := by
  simp only [List.Forall]; repeat' constructor

/-- @main is those ten lines and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line before the region writes argument 0: the region finds it as launched. -/
theorem entry_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 1: the region finds it as launched. -/
theorem entry_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 2: the region finds it as launched. -/
theorem entry_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 3: the region finds it as launched. -/
theorem entry_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 4: the region finds it as launched. -/
theorem entry_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 5: the region finds it as launched. -/
theorem entry_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 6: the region finds it as launched. -/
theorem entry_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 7: the region finds it as launched. -/
theorem entry_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 8: the region finds it as launched. -/
theorem entry_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 9: the region finds it as launched. -/
theorem entry_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 10: the region finds it as launched. -/
theorem entry_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 11: the region finds it as launched. -/
theorem entry_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 12: the region finds it as launched. -/
theorem entry_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 13: the region finds it as launched. -/
theorem entry_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 14: the region finds it as launched. -/
theorem entry_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 15: the region finds it as launched. -/
theorem entry_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 16: the region finds it as launched. -/
theorem entry_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 17: the region finds it as launched. -/
theorem entry_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 18: the region finds it as launched. -/
theorem entry_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes argument 19: the region finds it as launched. -/
theorem entry_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at grid point `t`, read off its array as the region finds it: for the eight batch-tiled
    windows rows 256·t … 256·t + 255, for the stacked weights, the recurrent weights and the bias rows the whole array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether it was fetched there or (its
    block index not having moved) at an earlier point, for any proof data whose array is the entry contents and
    whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether it was fetched there or (its
    block index not having moved) at an earlier point, for any proof data whose array is the entry contents and
    whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether it was fetched there or (its
    block index not having moved) at an earlier point, for any proof data whose array is the entry contents and
    whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether it was fetched there or (its
    block index not having moved) at an earlier point, for any proof data whose array is the entry contents and
    whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether it was fetched there or (its
    block index not having moved) at an earlier point, for any proof data whose array is the entry contents and
    whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether it was fetched there or (its
    block index not having moved) at an earlier point, for any proof data whose array is the entry contents and
    whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether it was fetched there or (its
    block index not having moved) at an earlier point, for any proof data whose array is the entry contents and
    whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, whether it was fetched there or (its
    block index not having moved) at an earlier point, for any proof data whose array is the entry contents and
    whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, whether it was fetched there or (its
    block index not having moved) at an earlier point, for any proof data whose array is the entry contents and
    whose body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, whether it was fetched there or (its
    block index not having moved) at an earlier point, for any proof data whose array is the entry contents and
    whose body leaves the block in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, whether it was fetched there or (its
    block index not having moved) at an earlier point, for any proof data whose array is the entry contents and
    whose body leaves the block in place. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, whether it was fetched there or (its
    block index not having moved) at an earlier point, for any proof data whose array is the entry contents and
    whose body leaves the block in place. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, whether it was fetched there or (its
    block index not having moved) at an earlier point, for any proof data whose array is the entry contents and
    whose body leaves the block in place. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, whether it was fetched there or (its
    block index not having moved) at an earlier point, for any proof data whose array is the entry contents and
    whose body leaves the block in place. -/
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, whether it was fetched there or (its
    block index not having moved) at an earlier point, for any proof data whose array is the entry contents and
    whose body leaves the block in place. -/
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, whether it was fetched there or (its
    block index not having moved) at an earlier point, for any proof data whose array is the entry contents and
    whose body leaves the block in place. -/
theorem before15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, whether it was fetched there or (its
    block index not having moved) at an earlier point, for any proof data whose array is the entry contents and
    whose body leaves the block in place. -/
theorem before16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region -/

/-- For any proof data whose arrays are the entry contents, a run to the pipeline library's frame post — every
    staged array at what the library computes from the proof data, every other array as the region found it — leaves
    the twenty arguments as launched: a staged input is never written back, an unstaged one is not touched, and
    either way the entry contents are the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).1 0).trans (((dats 0 c).arrAt_in 0 rfl _).trans ((hA c 0).trans (entry_main_arg0 m c))),
      ((h c).1 1).trans (((dats 0 c).arrAt_in 1 rfl _).trans ((hA c 1).trans (entry_main_arg1 m c))),
      ((h c).1 2).trans (((dats 0 c).arrAt_in 2 rfl _).trans ((hA c 2).trans (entry_main_arg2 m c))),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).2 main_arg9 (Pipeline.mem_restRefs_of main_arg9 (by decide) (by decide))).trans (entry_main_arg9 m c),
      ((h c).2 main_arg10 (Pipeline.mem_restRefs_of main_arg10 (by decide) (by decide))).trans (entry_main_arg10 m c),
      ((h c).2 main_arg11 (Pipeline.mem_restRefs_of main_arg11 (by decide) (by decide))).trans (entry_main_arg11 m c),
      ((h c).2 main_arg12 (Pipeline.mem_restRefs_of main_arg12 (by decide) (by decide))).trans (entry_main_arg12 m c),
      ((h c).2 main_arg13 (Pipeline.mem_restRefs_of main_arg13 (by decide) (by decide))).trans (entry_main_arg13 m c),
      ((h c).2 main_arg14 (Pipeline.mem_restRefs_of main_arg14 (by decide) (by decide))).trans (entry_main_arg14 m c),
      ((h c).1 3).trans (((dats 0 c).arrAt_in 3 rfl _).trans ((hA c 3).trans (entry_main_arg15 m c))),
      ((h c).1 4).trans (((dats 0 c).arrAt_in 4 rfl _).trans ((hA c 4).trans (entry_main_arg16 m c))),
      ((h c).1 5).trans (((dats 0 c).arrAt_in 5 rfl _).trans ((hA c 5).trans (entry_main_arg17 m c))),
      ((h c).1 6).trans (((dats 0 c).arrAt_in 6 rfl _).trans ((hA c 6).trans (entry_main_arg18 m c))),
      ((h c).1 7).trans (((dats 0 c).arrAt_in 7 rfl _).trans ((hA c 7).trans (entry_main_arg19 m c)))⟩) h

end Cert.KernelIdeal.Cell

end
-- ==== Proof.IdealPoint.lean ====
/-
  One grid point of the LSTM cell's body, run on whole staging buffers.

  The body reads its seventeen input buffers whole — a 256-row tile of x, h0, c0 and of the five dropout masks, the
  stacked input-side weights [4096,1024], the four recurrent weight matrices [1024,1024], the four bias rows
  [1,1024] —, computes the four gates, the new cell state c1 = f·c0 + i·(g·maskC) and the new hidden state
  h1 = o·tanh c1 on the tile, and overwrites its two output buffers whole with h1 and c1 (it also reads each output
  buffer once before overwriting it and uses nothing of what it read). So after the body every input buffer holds
  what it held, and each output buffer holds one piece, its own whole rectangle, at the body's arithmetic
  (the generated payload terms) of the input buffers' contents: `newHidden`, `newCell`.
-/
import proofs.«144616_j22445499089342_2_alg».proof.Proof.Gen.KernelIdeal.Launch
import proofs.«144616_j22445499089342_2_alg».proof.Proof.Gen.KernelIdeal.Skeleton
import proofs.«144616_j22445499089342_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every buffer through its whole rectangle -/

abbrev tile : Rect S256x1024 := Rect.unit (s := S256x1024) ![0, 0] S256x1024.size inb_S256x1024_S256x1024_0_0
abbrev stackedW : Rect S4096x1024 := Rect.unit (s := S4096x1024) ![0, 0] S4096x1024.size inb_S4096x1024_S4096x1024_0_0
abbrev squareW : Rect S1024x1024 := Rect.unit (s := S1024x1024) ![0, 0] S1024x1024.size inb_S1024x1024_S1024x1024_0_0
abbrev biasRow : Rect S1x1024 := Rect.unit (s := S1x1024) ![0, 0] S1x1024.size inb_S1x1024_S1x1024_0_0

/-! ## What the body leaves in the two output buffers -/

/-- The new cell state's buffer after the body, from the input buffers' contents: one store of the whole tile,
    c1 = f·c0 + i·(tanh(pre_c)·maskC), the gates from x, h0·mask and the weights (the generated payload terms). -/
def newCell (x0 : Vec F S256x1024 .f32) (x1 : Vec F S256x1024 .f32) (x2 : Vec F S256x1024 .f32) (x3 : Vec F S256x1024 .f32) (x4 : Vec F S256x1024 .f32) (x5 : Vec F S256x1024 .f32) (x6 : Vec F S256x1024 .f32) (x7 : Vec F S256x1024 .f32) (x8 : Vec F S4096x1024 .bf16) (x9 : Vec F S1024x1024 .bf16) (x10 : Vec F S1024x1024 .bf16) (x11 : Vec F S1024x1024 .bf16) (x12 : Vec F S1024x1024 .bf16) (x13 : Vec F S1x1024 .f32) (x14 : Vec F S1x1024 .f32) (x15 : Vec F S1x1024 .f32) (x16 : Vec F S1x1024 .f32) : Vec F S256x1024 .f32 :=
  View.canon [⟨tile, k0_pay1 (k0_pay3 (View.ld x0 tile) (View.ld x8 stackedW)) (View.ld x1 tile) (View.ld x2 tile)
      (k0_pay4 (View.ld x0 tile) (View.ld x8 stackedW) (View.ld x1 tile) (View.ld x3 tile) (View.ld x9 squareW) (View.ld x13 biasRow))
      (k0_pay5 (View.ld x0 tile) (View.ld x8 stackedW) (View.ld x1 tile) (View.ld x4 tile) (View.ld x10 squareW) (View.ld x14 biasRow))
      (View.ld x5 tile) (View.ld x11 squareW) (View.ld x15 biasRow) (View.ld x7 tile)⟩]

/-- The new hidden state's buffer after the body: one store of the whole tile, h1 = o·tanh c1. -/
def newHidden (x0 : Vec F S256x1024 .f32) (x1 : Vec F S256x1024 .f32) (x2 : Vec F S256x1024 .f32) (x3 : Vec F S256x1024 .f32) (x4 : Vec F S256x1024 .f32) (x5 : Vec F S256x1024 .f32) (x6 : Vec F S256x1024 .f32) (x7 : Vec F S256x1024 .f32) (x8 : Vec F S4096x1024 .bf16) (x9 : Vec F S1024x1024 .bf16) (x10 : Vec F S1024x1024 .bf16) (x11 : Vec F S1024x1024 .bf16) (x12 : Vec F S1024x1024 .bf16) (x13 : Vec F S1x1024 .f32) (x14 : Vec F S1x1024 .f32) (x15 : Vec F S1x1024 .f32) (x16 : Vec F S1x1024 .f32) : Vec F S256x1024 .f32 :=
  View.canon [⟨tile, k0_pay2 (k0_pay3 (View.ld x0 tile) (View.ld x8 stackedW)) (View.ld x1 tile) (View.ld x2 tile)
      (k0_pay4 (View.ld x0 tile) (View.ld x8 stackedW) (View.ld x1 tile) (View.ld x3 tile) (View.ld x9 squareW) (View.ld x13 biasRow))
      (k0_pay5 (View.ld x0 tile) (View.ld x8 stackedW) (View.ld x1 tile) (View.ld x4 tile) (View.ld x10 squareW) (View.ld x14 biasRow))
      (View.ld x5 tile) (View.ld x11 squareW) (View.ld x15 biasRow) (View.ld x7 tile)
      (View.ld x6 tile) (View.ld x12 squareW) (View.ld x16 biasRow)⟩]

/-- One store of the whole tile covers the tile. -/
theorem cover_tile (p0 : Vec F S256x1024 .f32) (y : S256x1024.Idx) :
    ∃ pc ∈ ([⟨tile, p0⟩] : List (View.Piece (Elt F) S256x1024 .f32)), y ∈ pc.1.set :=
  View.cover_of_tiled [⟨tile, p0⟩] S256x1024.size (by rfl) y

/-! ## The body's triple -/

set_option maxHeartbeats 4000000 in
/-- The body on whole staging buffers, the inputs' at contents `x0 … x16` and the outputs' at anything, runs to the
    continuation holding the inputs' as they were, the hidden state's at `newHidden` and the cell state's at `newCell`. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S4096x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S256x1024 .f32) (harg18 : arg18.IsWhole) (arg19 : Memref sig .tc .vmem S256x1024 .f32) (harg19 : arg19.IsWhole)
    (x0 : Vec F S256x1024 .f32) (x1 : Vec F S256x1024 .f32) (x2 : Vec F S256x1024 .f32) (x3 : Vec F S256x1024 .f32) (x4 : Vec F S256x1024 .f32) (x5 : Vec F S256x1024 .f32) (x6 : Vec F S256x1024 .f32) (x7 : Vec F S256x1024 .f32) (x8 : Vec F S4096x1024 .bf16) (x9 : Vec F S1024x1024 .bf16) (x10 : Vec F S1024x1024 .bf16) (x11 : Vec F S1024x1024 .bf16) (x12 : Vec F S1024x1024 .bf16) (x13 : Vec F S1x1024 .f32) (x14 : Vec F S1x1024 .f32) (x15 : Vec F S1x1024 .f32) (x16 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (newHidden x0 x1 x2 x3 x4 x5 x6 x7 x8 x9 x10 x11 x12 x13 x14 x15 x16) ∗ owns (c : Thread nD τ) arg19 fullShare (newCell x0 x1 x2 x3 x4 x5 x6 x7 x8 x9 x10 x11 x12 x13 x14 x15 x16)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    try dsimp only
    exact View.read_writes_eq_canon _ _ _ (cover_tile _)
  iexists _; isplitr
  swap; · iexact H18
  ipureintro
  try dsimp only
  exact View.read_writes_eq_canon _ _ _ (cover_tile _)

end Cert.KernelIdeal.Cell

end
-- ==== Proof.IdealRun.lean ====
/-
  The run of the LSTM cell's program: the pipeline's proof data, the body obligation at a generic grid point, and
  from them every weakly fair execution to the pipeline library's frame post, hence the frame claim.

  The proof data say, per core: the arrays are what the region finds at its entry; after the body at point `t`
  every input window's buffer still holds its block there, the hidden state's buffer holds `newHidden` and the cell
  state's `newCell` of the seventeen input blocks at `t`; nothing is owed and every share is whole. The eight grid
  points are independent: no output is read back and nothing is carried from one point to the next.
-/
import proofs.«144616_j22445499089342_2_alg».proof.Proof.IdealEntry
import proofs.«144616_j22445499089342_2_alg».proof.Proof.IdealPoint
import Idealize.ShloMosaic.Lib.Pipeline.FrameBody
import Idealize.ShloMosaic.Lib.Ring
import Idealize.ShloMosaic.Lib.Tactic

set_option maxRecDepth 16384

noncomputable section

namespace Cert.KernelIdeal.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => newHidden (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨18, _⟩ => newCell (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 19, h⟩ => absurd h (Nat.not_lt.2 (Nat.le_add_left _ _))
  Φ _ := Pipeline.ΦA spec0 c
  q _ := fullShare
  owed _ := 0

/-- The proof data's arrays are the entry contents (projected, never unfolded). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = newHidden (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after18 (c : Dev nD) (t : Fin cfg0.N) : (dats m 0 c).after 18 t = newCell (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d
theorem before14 (c : Dev nD) (t : Fin cfg0.N) (d) : (dats m 0 c).before 14 t d = iblk m c 14 t :=
  before14_of m (dats m 0 c) (A_eq m c 14) (after14 m c) t d
theorem before15 (c : Dev nD) (t : Fin cfg0.N) (d) : (dats m 0 c).before 15 t d = iblk m c 15 t :=
  before15_of m (dats m 0 c) (A_eq m c 15) (after15 m c) t d
theorem before16 (c : Dev nD) (t : Fin cfg0.N) (d) : (dats m 0 c).before 16 t d = iblk m c 16 t :=
  before16_of m (dats m 0 c) (A_eq m c 16) (after16 m c) t d

/-! ## The body obligation, at a generic point -/

/-- What the body is called with at point `t`, the nineteen windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

set_option maxHeartbeats 2000000 in
/-- The body at any point: the input buffers hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every staged array ending at
    what the library computes from the proof data and every other array as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim at any float instance: the program runs to the end and its twenty argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

end Cert.KernelIdeal.Cell

end
-- ==== Proof.EntryValues.lean ====
/-
  What the LSTM cell's region finds in the nine arrays the host prepared, as functions of the arguments.

  The stacked input-side weights [4096,1024] are the four matrices w_xi, w_xf, w_xc, w_xo one above the other, so row
  1024·g + k of the stack is row k of gate g's matrix; the four recurrent weight arrays are the arguments themselves
  (the change of float format is the identity at the exact reading); and each bias row [1,1024] is its bias vector
  [1024] re-laid, so entry (0, k) of the row is entry k of the vector.
-/
import proofs.«144616_j22445499089342_2_alg».proof.Proof.IdealEntry
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Cell

open Idealize.ShloMosaic Idealize.ShloMosaic.TcCoe Idealize.ShloMosaic.ValueIdx Idealize.ShloMosaic.StableHlo
open Idealize.SL Idealize.SL.Sem
open Cert.KernelIdeal Cert.KernelIdeal.Gen

variable (m : (ℓ : Loc nD τ sig) → Buf (Elt Ideal) ℓ)

/-! ## The stacked input-side weights -/

/-- The stack as the region finds it: the four matrices joined along the rows. -/
theorem found_stacked (c : Dev nD) :
    @Eq (S4096x1024.Idx → EReal) (V m c main_v1)
      (truncf (F := Ideal) .bf16 (concatenate S4096x1024 0 [⟨S1024x1024, m ((c : Thread nD τ).loc main_arg3)⟩, ⟨S1024x1024, m ((c : Thread nD τ).loc main_arg4)⟩, ⟨S1024x1024, m ((c : Thread nD τ).loc main_arg5)⟩, ⟨S1024x1024, m ((c : Thread nD τ).loc main_arg6)⟩]
          concatenates_S1024x1024_S1024x1024_S1024x1024_S1024x1024_S4096x1024_d0) bitsLt_bf16_f32) := by
  dsimp only [V, hostOps0]
  after_results
  rfl

/-- Row 0 + k of the stack is row k of gate 0's matrix. -/
theorem found_stacked_0 (c : Dev nD) (k j : Fin 1024) :
    (V m c main_v1 : S4096x1024.Idx → EReal) (ix2 (⟨0 + k.val, by have := k.isLt; omega⟩ : Fin 4096) j) = m ((c : Thread nD τ).loc main_arg3) (ix2 k j) := by
  refine (congrFun (found_stacked m c) _).trans ?_
  show concatenate S4096x1024 0 [⟨S1024x1024, m ((c : Thread nD τ).loc main_arg3)⟩, ⟨S1024x1024, m ((c : Thread nD τ).loc main_arg4)⟩, ⟨S1024x1024, m ((c : Thread nD τ).loc main_arg5)⟩, ⟨S1024x1024, m ((c : Thread nD τ).loc main_arg6)⟩]
      concatenates_S1024x1024_S1024x1024_S1024x1024_S1024x1024_S4096x1024_d0 (ix2 (⟨0 + k.val, by have := k.isLt; omega⟩ : Fin 4096) j) = _
  exact concatenate_apply_piece (0 : Fin S4096x1024.rank) _ _ _ 0 (by simp) S1024x1024 _ rfl rfl 0 (by first | rfl | decide | simp) (ix2 k j)
    (fun b hb => by
      match b with
      | ⟨0, _⟩ => exact absurd rfl hb
      | ⟨1, _⟩ => rfl) rfl

/-- Row 1024 + k of the stack is row k of gate 1's matrix. -/
theorem found_stacked_1 (c : Dev nD) (k j : Fin 1024) :
    (V m c main_v1 : S4096x1024.Idx → EReal) (ix2 (⟨1024 + k.val, by have := k.isLt; omega⟩ : Fin 4096) j) = m ((c : Thread nD τ).loc main_arg4) (ix2 k j) := by
  refine (congrFun (found_stacked m c) _).trans ?_
  show concatenate S4096x1024 0 [⟨S1024x1024, m ((c : Thread nD τ).loc main_arg3)⟩, ⟨S1024x1024, m ((c : Thread nD τ).loc main_arg4)⟩, ⟨S1024x1024, m ((c : Thread nD τ).loc main_arg5)⟩, ⟨S1024x1024, m ((c : Thread nD τ).loc main_arg6)⟩]
      concatenates_S1024x1024_S1024x1024_S1024x1024_S1024x1024_S4096x1024_d0 (ix2 (⟨1024 + k.val, by have := k.isLt; omega⟩ : Fin 4096) j) = _
  exact concatenate_apply_piece (0 : Fin S4096x1024.rank) _ _ _ 1 (by simp) S1024x1024 _ rfl rfl 1024 (by first | rfl | decide | simp) (ix2 k j)
    (fun b hb => by
      match b with
      | ⟨0, _⟩ => exact absurd rfl hb
      | ⟨1, _⟩ => rfl) rfl

/-- Row 2048 + k of the stack is row k of gate 2's matrix. -/
theorem found_stacked_2 (c : Dev nD) (k j : Fin 1024) :
    (V m c main_v1 : S4096x1024.Idx → EReal) (ix2 (⟨2048 + k.val, by have := k.isLt; omega⟩ : Fin 4096) j) = m ((c : Thread nD τ).loc main_arg5) (ix2 k j) := by
  refine (congrFun (found_stacked m c) _).trans ?_
  show concatenate S4096x1024 0 [⟨S1024x1024, m ((c : Thread nD τ).loc main_arg3)⟩, ⟨S1024x1024, m ((c : Thread nD τ).loc main_arg4)⟩, ⟨S1024x1024, m ((c : Thread nD τ).loc main_arg5)⟩, ⟨S1024x1024, m ((c : Thread nD τ).loc main_arg6)⟩]
      concatenates_S1024x1024_S1024x1024_S1024x1024_S1024x1024_S4096x1024_d0 (ix2 (⟨2048 + k.val, by have := k.isLt; omega⟩ : Fin 4096) j) = _
  exact concatenate_apply_piece (0 : Fin S4096x1024.rank) _ _ _ 2 (by simp) S1024x1024 _ rfl rfl 2048 (by first | rfl | decide | simp) (ix2 k j)
    (fun b hb => by
      match b with
      | ⟨0, _⟩ => exact absurd rfl hb
      | ⟨1, _⟩ => rfl) rfl

/-- Row 3072 + k of the stack is row k of gate 3's matrix. -/
theorem found_stacked_3 (c : Dev nD) (k j : Fin 1024) :
    (V m c main_v1 : S4096x1024.Idx → EReal) (ix2 (⟨3072 + k.val, by have := k.isLt; omega⟩ : Fin 4096) j) = m ((c : Thread nD τ).loc main_arg6) (ix2 k j) := by
  refine (congrFun (found_stacked m c) _).trans ?_
  show concatenate S4096x1024 0 [⟨S1024x1024, m ((c : Thread nD τ).loc main_arg3)⟩, ⟨S1024x1024, m ((c : Thread nD τ).loc main_arg4)⟩, ⟨S1024x1024, m ((c : Thread nD τ).loc main_arg5)⟩, ⟨S1024x1024, m ((c : Thread nD τ).loc main_arg6)⟩]
      concatenates_S1024x1024_S1024x1024_S1024x1024_S1024x1024_S4096x1024_d0 (ix2 (⟨3072 + k.val, by have := k.isLt; omega⟩ : Fin 4096) j) = _
  exact concatenate_apply_piece (0 : Fin S4096x1024.rank) _ _ _ 3 (by simp) S1024x1024 _ rfl rfl 3072 (by first | rfl | decide | simp) (ix2 k j)
    (fun b hb => by
      match b with
      | ⟨0, _⟩ => exact absurd rfl hb
      | ⟨1, _⟩ => rfl) rfl

/-! ## The recurrent weights -/

theorem found_recurrent_7 (c : Dev nD) (i : S1024x1024.Idx) :
    (V m c main_v2 : S1024x1024.Idx → EReal) i = m ((c : Thread nD τ).loc main_arg7) i := by
  have e : @Eq (S1024x1024.Idx → EReal) (V m c main_v2) (truncf (F := Ideal) .bf16 (m ((c : Thread nD τ).loc main_arg7)) bitsLt_bf16_f32) := by
    dsimp only [V, hostOps0]
    after_results
    all_goals rfl
  exact congrFun e i
theorem found_recurrent_8 (c : Dev nD) (i : S1024x1024.Idx) :
    (V m c main_v3 : S1024x1024.Idx → EReal) i = m ((c : Thread nD τ).loc main_arg8) i := by
  have e : @Eq (S1024x1024.Idx → EReal) (V m c main_v3) (truncf (F := Ideal) .bf16 (m ((c : Thread nD τ).loc main_arg8)) bitsLt_bf16_f32) := by
    dsimp only [V, hostOps0]
    after_results
    all_goals rfl
  exact congrFun e i
theorem found_recurrent_9 (c : Dev nD) (i : S1024x1024.Idx) :
    (V m c main_v4 : S1024x1024.Idx → EReal) i = m ((c : Thread nD τ).loc main_arg9) i := by
  have e : @Eq (S1024x1024.Idx → EReal) (V m c main_v4) (truncf (F := Ideal) .bf16 (m ((c : Thread nD τ).loc main_arg9)) bitsLt_bf16_f32) := by
    dsimp only [V, hostOps0]
    after_results
    all_goals rfl
  exact congrFun e i
theorem found_recurrent_10 (c : Dev nD) (i : S1024x1024.Idx) :
    (V m c main_v5 : S1024x1024.Idx → EReal) i = m ((c : Thread nD τ).loc main_arg10) i := by
  have e : @Eq (S1024x1024.Idx → EReal) (V m c main_v5) (truncf (F := Ideal) .bf16 (m ((c : Thread nD τ).loc main_arg10)) bitsLt_bf16_f32) := by
    dsimp only [V, hostOps0]
    after_results
    all_goals rfl
  exact congrFun e i

/-! ## The bias rows -/

theorem found_bias_11 (c : Dev nD) (k : Fin 1024) :
    (V m c main_v6 : S1x1024.Idx → EReal) (ix2 (0 : Fin 1) k) = m ((c : Thread nD τ).loc main_arg11) (ix1 k) := by
  have e : @Eq (S1x1024.Idx → EReal) (V m c main_v6) (shapeCast S1x1024 (m ((c : Thread nD τ).loc main_arg11)) shapeCasts_S1024_S1x1024) := by
    dsimp only [V, hostOps0]
    after_results
    all_goals rfl
  refine (congrFun e _).trans ?_
  refine shapeCast_apply _ _ _ _ ?_
  show (S1024.rowMajor (ix1 k)).val = (S1x1024.rowMajor (ix2 (0 : Fin 1) k)).val
  rw [Shape.rowMajor_val_one, Shape.rowMajor_val_two]
  show k.val = 0 * _ + k.val
  omega
theorem found_bias_12 (c : Dev nD) (k : Fin 1024) :
    (V m c main_v7 : S1x1024.Idx → EReal) (ix2 (0 : Fin 1) k) = m ((c : Thread nD τ).loc main_arg12) (ix1 k) := by
  have e : @Eq (S1x1024.Idx → EReal) (V m c main_v7) (shapeCast S1x1024 (m ((c : Thread nD τ).loc main_arg12)) shapeCasts_S1024_S1x1024) := by
    dsimp only [V, hostOps0]
    after_results
    all_goals rfl
  refine (congrFun e _).trans ?_
  refine shapeCast_apply _ _ _ _ ?_
  show (S1024.rowMajor (ix1 k)).val = (S1x1024.rowMajor (ix2 (0 : Fin 1) k)).val
  rw [Shape.rowMajor_val_one, Shape.rowMajor_val_two]
  show k.val = 0 * _ + k.val
  omega
theorem found_bias_13 (c : Dev nD) (k : Fin 1024) :
    (V m c main_v8 : S1x1024.Idx → EReal) (ix2 (0 : Fin 1) k) = m ((c : Thread nD τ).loc main_arg13) (ix1 k) := by
  have e : @Eq (S1x1024.Idx → EReal) (V m c main_v8) (shapeCast S1x1024 (m ((c : Thread nD τ).loc main_arg13)) shapeCasts_S1024_S1x1024) := by
    dsimp only [V, hostOps0]
    after_results
    all_goals rfl
  refine (congrFun e _).trans ?_
  refine shapeCast_apply _ _ _ _ ?_
  show (S1024.rowMajor (ix1 k)).val = (S1x1024.rowMajor (ix2 (0 : Fin 1) k)).val
  rw [Shape.rowMajor_val_one, Shape.rowMajor_val_two]
  show k.val = 0 * _ + k.val
  omega
theorem found_bias_14 (c : Dev nD) (k : Fin 1024) :
    (V m c main_v9 : S1x1024.Idx → EReal) (ix2 (0 : Fin 1) k) = m ((c : Thread nD τ).loc main_arg14) (ix1 k) := by
  have e : @Eq (S1x1024.Idx → EReal) (V m c main_v9) (shapeCast S1x1024 (m ((c : Thread nD τ).loc main_arg14)) shapeCasts_S1024_S1x1024) := by
    dsimp only [V, hostOps0]
    after_results
    all_goals rfl
  refine (congrFun e _).trans ?_
  refine shapeCast_apply _ _ _ _ ?_
  show (S1024.rowMajor (ix1 k)).val = (S1x1024.rowMajor (ix2 (0 : Fin 1) k)).val
  rw [Shape.rowMajor_val_one, Shape.rowMajor_val_two]
  show k.val = 0 * _ + k.val
  omega

end Cert.KernelIdeal.Cell

end
-- ==== Proof.TileMath.lean ====
/-
  The arithmetic of one 256-row tile of the LSTM cell, read at an entry (p, k) at the exact reading.

  The body forms gx = x·Wxᵀ for the four gates at once against the stacked weights [4096,1024] (gate g's columns are
  1024·g … 1024·g + 1023), and per gate the pre-activation gx[p, 1024·g + k] + Σ_j (h0[p,j]·mask_g[p,j])·Wh_g[k,j] + b_g[k];
  a change of float format is the identity here and a product accumulated from the zero splat is the plain sum. The
  lemmas below read each of the generated payload terms at (p, k) in that form, over arbitrary tile contents.
-/
import proofs.«144616_j22445499089342_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Cell

open Idealize.ShloMosaic Idealize.ShloMosaic.TcCoe Idealize.ShloMosaic.ValueIdx Idealize.SL.Sem
open Cert.KernelIdeal Cert.KernelIdeal.Gen

/-! ## The two matrix products -/

theorem wide_lhs0 (i : S256x4096.Idx) (q : dot_S256x1024_S4096x1024_S256x4096_1_1_0_0_n_n.contr.Idx) : (dot_S256x1024_S4096x1024_S256x4096_1_1_0_0_n_n.lhsIdx i q 0).val = (i 0).val := by
  unfold DotDims.lhsIdx
  rw [dif_neg (show ¬(0 : Fin S256x1024.rank) ∈ dot_S256x1024_S4096x1024_S256x4096_1_1_0_0_n_n.lhsBatch by decide), dif_pos (show (0 : Fin S256x1024.rank) ∈ dot_S256x1024_S4096x1024_S256x4096_1_1_0_0_n_n.lhsNonContracting by decide)]
  rfl
theorem wide_lhs1 (i : S256x4096.Idx) (q : dot_S256x1024_S4096x1024_S256x4096_1_1_0_0_n_n.contr.Idx) : (dot_S256x1024_S4096x1024_S256x4096_1_1_0_0_n_n.lhsIdx i q 1).val = (q ⟨0, by decide⟩).val :=
  dot_S256x1024_S4096x1024_S256x4096_1_1_0_0_n_n.lhsIdx_val_of_single rfl i q
theorem wide_rhs0 (i : S256x4096.Idx) (q : dot_S256x1024_S4096x1024_S256x4096_1_1_0_0_n_n.contr.Idx) : (dot_S256x1024_S4096x1024_S256x4096_1_1_0_0_n_n.rhsIdx i q 0).val = (i 1).val := by
  unfold DotDims.rhsIdx
  rw [dif_neg (show ¬(0 : Fin S4096x1024.rank) ∈ dot_S256x1024_S4096x1024_S256x4096_1_1_0_0_n_n.rhsBatch by decide), dif_pos (show (0 : Fin S4096x1024.rank) ∈ dot_S256x1024_S4096x1024_S256x4096_1_1_0_0_n_n.rhsNonContracting by decide)]
  rfl
theorem wide_rhs1 (i : S256x4096.Idx) (q : dot_S256x1024_S4096x1024_S256x4096_1_1_0_0_n_n.contr.Idx) : (dot_S256x1024_S4096x1024_S256x4096_1_1_0_0_n_n.rhsIdx i q 1).val = (q ⟨0, by decide⟩).val :=
  dot_S256x1024_S4096x1024_S256x4096_1_1_0_0_n_n.rhsIdx_val_of_single rfl i q

/-- A tile [256,1024] times the transpose of a [4096,1024] matrix, accumulated from zero, at (p, n): the sum over
    the shared axis of row p of the tile against row n of the matrix. -/
theorem wide_apply (a : FVec Ideal S256x1024 .bf16) (w : FVec Ideal S4096x1024 .bf16) (p : Fin 256) (n : Fin 4096) :
    matmul dot_S256x1024_S4096x1024_S256x4096_1_1_0_0_n_n none a w (constant S256x4096 .f32 0x00000000#32) (ix2 p n) = ∑ j : Fin 1024, a (ix2 p j) * w (ix2 n j) := by
  simp only [matmul]
  rw [Ideal.matmul_constant_zero_apply, ← Equiv.sum_comp (ValueIdx.contrEquiv1 dot_S256x1024_S4096x1024_S256x4096_1_1_0_0_n_n 1024 rfl rfl).symm]
  refine Finset.sum_congr rfl fun k _ => ?_
  have hk := ValueIdx.contrEquiv1_symm_val dot_S256x1024_S4096x1024_S256x4096_1_1_0_0_n_n 1024 rfl rfl k
  have el : dot_S256x1024_S4096x1024_S256x4096_1_1_0_0_n_n.lhsIdx (ix2 p n) ((ValueIdx.contrEquiv1 dot_S256x1024_S4096x1024_S256x4096_1_1_0_0_n_n 1024 rfl rfl).symm k) = ix2 p k := funext fun ax => Fin.ext (by
    match ax with
    | ⟨0, _⟩ => exact wide_lhs0 _ _
    | ⟨1, _⟩ => exact (wide_lhs1 _ _).trans hk)
  have er : dot_S256x1024_S4096x1024_S256x4096_1_1_0_0_n_n.rhsIdx (ix2 p n) ((ValueIdx.contrEquiv1 dot_S256x1024_S4096x1024_S256x4096_1_1_0_0_n_n 1024 rfl rfl).symm k) = ix2 n k := funext fun ax => Fin.ext (by
    match ax with
    | ⟨0, _⟩ => exact wide_rhs0 _ _
    | ⟨1, _⟩ => exact (wide_rhs1 _ _).trans hk)
  rw [el, er]

theorem square_lhs0 (i : S256x1024.Idx) (q : dot_S256x1024_S1024x1024_S256x1024_1_1_0_0_n_n.contr.Idx) : (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem square_lhs1 (i : S256x1024.Idx) (q : dot_S256x1024_S1024x1024_S256x1024_1_1_0_0_n_n.contr.Idx) : (dot_S256x1024_S1024x1024_S256x1024_1_1_0_0_n_n.lhsIdx i q 1).val = (q ⟨0, by decide⟩).val :=
  dot_S256x1024_S1024x1024_S256x1024_1_1_0_0_n_n.lhsIdx_val_of_single rfl i q
theorem square_rhs0 (i : S256x1024.Idx) (q : dot_S256x1024_S1024x1024_S256x1024_1_1_0_0_n_n.contr.Idx) : (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem square_rhs1 (i : S256x1024.Idx) (q : dot_S256x1024_S1024x1024_S256x1024_1_1_0_0_n_n.contr.Idx) : (dot_S256x1024_S1024x1024_S256x1024_1_1_0_0_n_n.rhsIdx i q 1).val = (q ⟨0, by decide⟩).val :=
  dot_S256x1024_S1024x1024_S256x1024_1_1_0_0_n_n.rhsIdx_val_of_single rfl i q

/-- A tile [256,1024] times the transpose of a [1024,1024] matrix, accumulated from zero, at (p, n): the sum over
    the shared axis of row p of the tile against row n of the matrix. -/
theorem square_apply (a : FVec Ideal S256x1024 .bf16) (w : FVec Ideal S1024x1024 .bf16) (p : Fin 256) (n : Fin 1024) :
    matmul dot_S256x1024_S1024x1024_S256x1024_1_1_0_0_n_n none a w (constant S256x1024 .f32 0x00000000#32) (ix2 p n) = ∑ j : Fin 1024, a (ix2 p j) * w (ix2 n j) := by
  simp only [matmul]
  rw [Ideal.matmul_constant_zero_apply, ← Equiv.sum_comp (ValueIdx.contrEquiv1 dot_S256x1024_S1024x1024_S256x1024_1_1_0_0_n_n 1024 rfl rfl).symm]
  refine Finset.sum_congr rfl fun k _ => ?_
  have hk := ValueIdx.contrEquiv1_symm_val dot_S256x1024_S1024x1024_S256x1024_1_1_0_0_n_n 1024 rfl rfl k
  have el : dot_S256x1024_S1024x1024_S256x1024_1_1_0_0_n_n.lhsIdx (ix2 p n) ((ValueIdx.contrEquiv1 dot_S256x1024_S1024x1024_S256x1024_1_1_0_0_n_n 1024 rfl rfl).symm k) = ix2 p k := funext fun ax => Fin.ext (by
    match ax with
    | ⟨0, _⟩ => exact square_lhs0 _ _
    | ⟨1, _⟩ => exact (square_lhs1 _ _).trans hk)
  have er : dot_S256x1024_S1024x1024_S256x1024_1_1_0_0_n_n.rhsIdx (ix2 p n) ((ValueIdx.contrEquiv1 dot_S256x1024_S1024x1024_S256x1024_1_1_0_0_n_n 1024 rfl rfl).symm k) = ix2 n k := funext fun ax => Fin.ext (by
    match ax with
    | ⟨0, _⟩ => exact square_rhs0 _ _
    | ⟨1, _⟩ => exact (square_rhs1 _ _).trans hk)
  rw [el, er]

/-! ## One gate's pre-activation -/

/-- Gate g's pre-activation on the tile at (p, k), `off` = 1024·g: the slice of gx, plus the recurrent product of the
    masked h0, plus the bias row. -/
def tilePre (off : Nat) (hoff : off + 1024 ≤ 4096) (gx : FVec Ideal S256x4096 .f32) (h mask : Vec Ideal S256x1024 .f32)
    (wh : Vec Ideal S1024x1024 .bf16) (b : Vec Ideal S1x1024 .f32) (p : Fin 256) (k : Fin 1024) : EReal :=
  (gx (ix2 p (⟨off + k.val, by have := k.isLt; omega⟩ : Fin 4096)) + ∑ j : Fin 1024, (h (ix2 p j) * mask (ix2 p j)) * wh (ix2 k j))
    + b (ix2 (0 : Fin 1) k)

theorem tilePre_apply (off : Nat) (hoff : off + 1024 ≤ 4096) (hs : S256x4096.Slices ![0, off] S256x1024)
    (gx : FVec Ideal S256x4096 .f32) (h mask : Vec Ideal S256x1024 .f32) (wh : Vec Ideal S1024x1024 .bf16) (b : Vec Ideal S1x1024 .f32)
    (p : Fin 256) (k : Fin 1024) :
    addf (addf (extractStridedSlice S256x1024 ![0, off] gx hs)
        (matmul dot_S256x1024_S1024x1024_S256x1024_1_1_0_0_n_n none (truncf .bf16 (mulf h mask) bitsLt_bf16_f32) (shapeCast S1024x1024 wh shapeCasts_S1024x1024_S1024x1024 : FVec Ideal S1024x1024 .bf16)
          (constant S256x1024 .f32 0x00000000#32)))
      (broadcastTo S256x1024 (shapeCast S1x1024 b shapeCasts_S1x1024_S1x1024 : FVec Ideal S1x1024 .f32) broadcasts_S1x1024_S256x1024) (ix2 p k)
    = tilePre off hoff gx h mask wh b p k := by
  unfold tilePre
  rw [ValueIdx.addf_apply, ValueIdx.addf_apply, square_apply, shapeCast_self, shapeCast_self, ValueIdx.broadcastTo_1b_ab_apply]
  rw [extractStridedSlice_apply ![0, off] gx hs (ix2 p k) (ix2 p (⟨off + k.val, by have := k.isLt; omega⟩ : Fin 4096)) (fun ax => by
    match ax with
    | ⟨0, _⟩ => show p.val = 0 + p.val; omega
    | ⟨1, _⟩ => rfl)]
  rfl

/-! ## The payloads -/

theorem pay3_apply (x : Vec Ideal S256x1024 .f32) (w : Vec Ideal S4096x1024 .bf16) (p : Fin 256) (n : Fin 4096) :
    k0_pay3 (F := Ideal) x w (ix2 p n) = ∑ j : Fin 1024, x (ix2 p j) * w (ix2 n j) := by
  unfold k0_pay3
  rw [wide_apply, shapeCast_self]
  rfl

theorem pay4_apply (x : Vec Ideal S256x1024 .f32) (w : Vec Ideal S4096x1024 .bf16) (h mask : Vec Ideal S256x1024 .f32)
    (wh : Vec Ideal S1024x1024 .bf16) (b : Vec Ideal S1x1024 .f32) (p : Fin 256) (k : Fin 1024) :
    k0_pay4 (F := Ideal) x w h mask wh b (ix2 p k) = Ideal.logistic (tilePre 0 (by omega) (k0_pay3 x w) h mask wh b p k) := by
  unfold k0_pay4
  exact congrArg Ideal.logistic (tilePre_apply 0 (by omega) slices_S256x4096_o0_0_S256x1024 (k0_pay3 x w) h mask wh b p k)

theorem pay5_apply (x : Vec Ideal S256x1024 .f32) (w : Vec Ideal S4096x1024 .bf16) (h mask : Vec Ideal S256x1024 .f32)
    (wh : Vec Ideal S1024x1024 .bf16) (b : Vec Ideal S1x1024 .f32) (p : Fin 256) (k : Fin 1024) :
    k0_pay5 (F := Ideal) x w h mask wh b (ix2 p k) = Ideal.logistic (tilePre 1024 (by omega) (k0_pay3 x w) h mask wh b p k) := by
  unfold k0_pay5
  exact congrArg Ideal.logistic (tilePre_apply 1024 (by omega) slices_S256x4096_o0_1024_S256x1024 (k0_pay3 x w) h mask wh b p k)

/-- The new cell state on the tile at (p, k), from the gate values already formed. -/
theorem pay1_apply (gx : FVec Ideal S256x4096 .f32) (h c0 : Vec Ideal S256x1024 .f32) (gI gF : FVec Ideal S256x1024 .f32)
    (mask : Vec Ideal S256x1024 .f32) (wh : Vec Ideal S1024x1024 .bf16) (b : Vec Ideal S1x1024 .f32) (mCell : Vec Ideal S256x1024 .f32)
    (p : Fin 256) (k : Fin 1024) :
    k0_pay1 (F := Ideal) gx h c0 gI gF mask wh b mCell (ix2 p k)
      = gF (ix2 p k) * c0 (ix2 p k) + gI (ix2 p k) * (Ideal.tanh (tilePre 2048 (by omega) gx h mask wh b p k) * mCell (ix2 p k)) := by
  unfold k0_pay1
  show gF (ix2 p k) * c0 (ix2 p k) + gI (ix2 p k) * (Ideal.tanh (_) * mCell (ix2 p k)) = _
  rw [tilePre_apply 2048 (by omega) slices_S256x4096_o0_2048_S256x1024 gx h mask wh b p k]

/-- The new hidden state on the tile at (p, k). -/
theorem pay2_apply (gx : FVec Ideal S256x4096 .f32) (h c0 : Vec Ideal S256x1024 .f32) (gI gF : FVec Ideal S256x1024 .f32)
    (maskC : Vec Ideal S256x1024 .f32) (whc : Vec Ideal S1024x1024 .bf16) (bc : Vec Ideal S1x1024 .f32) (mCell : Vec Ideal S256x1024 .f32)
    (maskO : Vec Ideal S256x1024 .f32) (who : Vec Ideal S1024x1024 .bf16) (bo : Vec Ideal S1x1024 .f32) (p : Fin 256) (k : Fin 1024) :
    k0_pay2 (F := Ideal) gx h c0 gI gF maskC whc bc mCell maskO who bo (ix2 p k)
      = Ideal.logistic (tilePre 3072 (by omega) gx h maskO who bo p k) * Ideal.tanh (k0_pay1 (F := Ideal) gx h c0 gI gF maskC whc bc mCell (ix2 p k)) := by
  unfold k0_pay2
  show Ideal.logistic (_) * Ideal.tanh (k0_pay1 (F := Ideal) gx h c0 gI gF maskC whc bc mCell (ix2 p k)) = _
  rw [tilePre_apply 3072 (by omega) slices_S256x4096_o0_3072_S256x1024 gx h maskO who bo p k]

end Cert.KernelIdeal.Cell

end
-- ==== Proof.LstmSpec.lean ====
/-
  The LSTM cell with per-gate dropout masks, as one function of its twenty arrays over the extended reals.

  For a batch of 2048 rows and 1024 hidden units, with x, h0, c0 : [2048,1024], each weight [1024,1024] stored
  (out, in), each bias [1024] and each mask [2048,1024]:

      pre_g[r,k] = (Σ_j x[r,j]·Wx_g[k,j]  +  Σ_j (h0[r,j]·M_g[r,j])·Wh_g[k,j])  +  b_g[k]       g ∈ {i, f, c, o}
      c1[r,k]    = σ(pre_f[r,k])·c0[r,k] + σ(pre_i[r,k])·(tanh(pre_c[r,k])·M_cell[r,k])
      h1[r,k]    = σ(pre_o[r,k])·tanh(c1[r,k])

  with σ t = 1/(1 + e^(−t)) and every operation the exact one on the extended reals. The grouping of the sums and
  products is the one both programs use, so no law beyond commutativity of one product is needed to join them, and
  in particular nothing is assumed finite.
-/
import Idealize.ShloMosaic.PureOps.Ideal
import Idealize.ShloMosaic.Lib.ValueIdx

noncomputable section

open scoped BigOperators

namespace Cert.LstmSpec

open Idealize.ShloMosaic Idealize.ShloMosaic.ValueIdx

/-- batch × units, units × units (a weight, stored out × in), units. -/
abbrev BxU : Shape := ⟨2, ![2048, 1024]⟩
abbrev UxU : Shape := ⟨2, ![1024, 1024]⟩
abbrev U1 : Shape := ⟨1, ![1024]⟩

/-- One gate's pre-activation at batch row `r` and unit `k`: x·Wxᵀ + (h0∘mask)·Whᵀ + b. -/
def gatePre (x h0 mask : BxU.Idx → EReal) (wx wh : UxU.Idx → EReal) (b : U1.Idx → EReal) (r : Fin 2048) (k : Fin 1024) : EReal :=
  ((∑ j : Fin 1024, x (ix2 r j) * wx (ix2 k j)) + ∑ j : Fin 1024, (h0 (ix2 r j) * mask (ix2 r j)) * wh (ix2 k j)) + b (ix1 k)

/-- The cell's twenty arrays, in the programs' argument order: x, h0, c0; the input-side weights of the gates
    i, f, c, o; the recurrent weights of the same; the biases of the same; the four masks on h0, gate by gate, and
    the mask on the candidate. -/
structure Inputs where
  x : BxU.Idx → EReal
  h0 : BxU.Idx → EReal
  c0 : BxU.Idx → EReal
  wxi : UxU.Idx → EReal
  wxf : UxU.Idx → EReal
  wxc : UxU.Idx → EReal
  wxo : UxU.Idx → EReal
  whi : UxU.Idx → EReal
  whf : UxU.Idx → EReal
  whc : UxU.Idx → EReal
  who : UxU.Idx → EReal
  bi : U1.Idx → EReal
  bf : U1.Idx → EReal
  bc : U1.Idx → EReal
  bo : U1.Idx → EReal
  mI : BxU.Idx → EReal
  mF : BxU.Idx → EReal
  mC : BxU.Idx → EReal
  mO : BxU.Idx → EReal
  mCell : BxU.Idx → EReal

/-- The new cell state at (r, k). -/
def cellAt (a : Inputs) (r : Fin 2048) (k : Fin 1024) : EReal :=
  Ideal.logistic (gatePre a.x a.h0 a.mF a.wxf a.whf a.bf r k) * a.c0 (ix2 r k)
    + Ideal.logistic (gatePre a.x a.h0 a.mI a.wxi a.whi a.bi r k)
      * (Ideal.tanh (gatePre a.x a.h0 a.mC a.wxc a.whc a.bc r k) * a.mCell (ix2 r k))

/-- The new hidden state at (r, k). -/
def hiddenAt (a : Inputs) (r : Fin 2048) (k : Fin 1024) : EReal :=
  Ideal.logistic (gatePre a.x a.h0 a.mO a.wxo a.who a.bo r k) * Ideal.tanh (cellAt a r k)

/-- The two result arrays. -/
def cell (a : Inputs) : BxU.Idx → EReal := fun i => cellAt a (i 0) (i 1)
def hidden (a : Inputs) : BxU.Idx → EReal := fun i => hiddenAt a (i 0) (i 1)

theorem cell_ix2 (a : Inputs) (r : Fin 2048) (k : Fin 1024) : cell a (ix2 r k) = cellAt a r k := rfl
theorem hidden_ix2 (a : Inputs) (r : Fin 2048) (k : Fin 1024) : hidden a (ix2 r k) = hiddenAt a r k := rfl

end Cert.LstmSpec

end
-- ==== Proof.TileSpec.lean ====
/-
  A tile of the LSTM cell against the whole-array specification.

  If the seventeen buffers the body reads hold rows r0 … r0 + 255 of x, h0, c0 and the five masks, the stacked
  input-side weights (row 1024·g + k the row k of gate g's matrix), the four recurrent weight matrices and the four
  bias rows, then at entry (p, k) of the tile each gate's pre-activation is the specification's at row r0 + p, and so
  the body's new cell state and new hidden state are the specification's `cellAt` and `hiddenAt` at (r0 + p, k).
-/
import proofs.«144616_j22445499089342_2_alg».proof.Proof.TileMath
import proofs.«144616_j22445499089342_2_alg».proof.Proof.LstmSpec

noncomputable section

open scoped BigOperators

namespace Cert.KernelIdeal.Cell

open Idealize.ShloMosaic Idealize.ShloMosaic.TcCoe Idealize.ShloMosaic.ValueIdx Idealize.SL.Sem
open Cert.KernelIdeal Cert.KernelIdeal.Gen

/-- One gate: the tile's pre-activation is the whole array's at the tile's rows. -/
theorem tilePre_eq_gatePre (off : Nat) (hoff : off + 1024 ≤ 4096) (r0 : Nat) (hr0 : r0 + 256 ≤ 2048)
    (x h0 mask : Cert.LstmSpec.BxU.Idx → EReal) (wx wh : Cert.LstmSpec.UxU.Idx → EReal) (b : Cert.LstmSpec.U1.Idx → EReal)
    (X H M : Vec Ideal S256x1024 .f32) (W : Vec Ideal S4096x1024 .bf16) (WH : Vec Ideal S1024x1024 .bf16) (B : Vec Ideal S1x1024 .f32)
    (hX : ∀ (p : Fin 256) (j : Fin 1024), X (ix2 p j) = x (ix2 (⟨r0 + p.val, by have := p.isLt; omega⟩ : Fin 2048) j))
    (hH : ∀ (p : Fin 256) (j : Fin 1024), H (ix2 p j) = h0 (ix2 (⟨r0 + p.val, by have := p.isLt; omega⟩ : Fin 2048) j))
    (hM : ∀ (p : Fin 256) (j : Fin 1024), M (ix2 p j) = mask (ix2 (⟨r0 + p.val, by have := p.isLt; omega⟩ : Fin 2048) j))
    (hW : ∀ (k j : Fin 1024), W (ix2 (⟨off + k.val, by have := k.isLt; omega⟩ : Fin 4096) j) = wx (ix2 k j))
    (hWH : ∀ (k j : Fin 1024), WH (ix2 k j) = wh (ix2 k j))
    (hB : ∀ k : Fin 1024, B (ix2 (0 : Fin 1) k) = b (ix1 k))
    (p : Fin 256) (k : Fin 1024) :
    tilePre off hoff (k0_pay3 (F := Ideal) X W) H M WH B p k = Cert.LstmSpec.gatePre x h0 mask wx wh b (⟨r0 + p.val, by have := p.isLt; omega⟩ : Fin 2048) k := by
  unfold tilePre Cert.LstmSpec.gatePre
  rw [pay3_apply]
  simp only [hX, hH, hM, hW, hWH, hB]

/-- The seventeen buffers hold the tile starting at row `r0` of the arrays `a`. -/
structure IsTile (a : Cert.LstmSpec.Inputs) (r0 : Nat) (hr0 : r0 + 256 ≤ 2048)
    (X H C0 MI MF MC MO MCELL : Vec Ideal S256x1024 .f32) (W : Vec Ideal S4096x1024 .bf16)
    (WHI WHF WHC WHO : Vec Ideal S1024x1024 .bf16) (BI BF BC BO : Vec Ideal S1x1024 .f32) : Prop where
  hx : ∀ (p : Fin 256) (j : Fin 1024), X (ix2 p j) = a.x (ix2 (⟨r0 + p.val, by have := p.isLt; omega⟩ : Fin 2048) j)
  hh : ∀ (p : Fin 256) (j : Fin 1024), H (ix2 p j) = a.h0 (ix2 (⟨r0 + p.val, by have := p.isLt; omega⟩ : Fin 2048) j)
  hc0 : ∀ (p : Fin 256) (j : Fin 1024), C0 (ix2 p j) = a.c0 (ix2 (⟨r0 + p.val, by have := p.isLt; omega⟩ : Fin 2048) j)
  hmi : ∀ (p : Fin 256) (j : Fin 1024), MI (ix2 p j) = a.mI (ix2 (⟨r0 + p.val, by have := p.isLt; omega⟩ : Fin 2048) j)
  hmf : ∀ (p : Fin 256) (j : Fin 1024), MF (ix2 p j) = a.mF (ix2 (⟨r0 + p.val, by have := p.isLt; omega⟩ : Fin 2048) j)
  hmc : ∀ (p : Fin 256) (j : Fin 1024), MC (ix2 p j) = a.mC (ix2 (⟨r0 + p.val, by have := p.isLt; omega⟩ : Fin 2048) j)
  hmo : ∀ (p : Fin 256) (j : Fin 1024), MO (ix2 p j) = a.mO (ix2 (⟨r0 + p.val, by have := p.isLt; omega⟩ : Fin 2048) j)
  hmcell : ∀ (p : Fin 256) (j : Fin 1024), MCELL (ix2 p j) = a.mCell (ix2 (⟨r0 + p.val, by have := p.isLt; omega⟩ : Fin 2048) j)
  hw0 : ∀ (k j : Fin 1024), W (ix2 (⟨0 + k.val, by have := k.isLt; omega⟩ : Fin 4096) j) = a.wxi (ix2 k j)
  hw1 : ∀ (k j : Fin 1024), W (ix2 (⟨1024 + k.val, by have := k.isLt; omega⟩ : Fin 4096) j) = a.wxf (ix2 k j)
  hw2 : ∀ (k j : Fin 1024), W (ix2 (⟨2048 + k.val, by have := k.isLt; omega⟩ : Fin 4096) j) = a.wxc (ix2 k j)
  hw3 : ∀ (k j : Fin 1024), W (ix2 (⟨3072 + k.val, by have := k.isLt; omega⟩ : Fin 4096) j) = a.wxo (ix2 k j)
  hwhi : ∀ (k j : Fin 1024), WHI (ix2 k j) = a.whi (ix2 k j)
  hwhf : ∀ (k j : Fin 1024), WHF (ix2 k j) = a.whf (ix2 k j)
  hwhc : ∀ (k j : Fin 1024), WHC (ix2 k j) = a.whc (ix2 k j)
  hwho : ∀ (k j : Fin 1024), WHO (ix2 k j) = a.who (ix2 k j)
  hbi : ∀ k : Fin 1024, BI (ix2 (0 : Fin 1) k) = a.bi (ix1 k)
  hbf : ∀ k : Fin 1024, BF (ix2 (0 : Fin 1) k) = a.bf (ix1 k)
  hbc : ∀ k : Fin 1024, BC (ix2 (0 : Fin 1) k) = a.bc (ix1 k)
  hbo : ∀ k : Fin 1024, BO (ix2 (0 : Fin 1) k) = a.bo (ix1 k)

variable {a : Cert.LstmSpec.Inputs} {r0 : Nat} {hr0 : r0 + 256 ≤ 2048}
  {X H C0 MI MF MC MO MCELL : Vec Ideal S256x1024 .f32} {W : Vec Ideal S4096x1024 .bf16}
  {WHI WHF WHC WHO : Vec Ideal S1024x1024 .bf16} {BI BF BC BO : Vec Ideal S1x1024 .f32}

/-- The body's new cell state on the tile is the specification's at the tile's rows. -/
theorem cell_tile (ht : IsTile a r0 hr0 X H C0 MI MF MC MO MCELL W WHI WHF WHC WHO BI BF BC BO) (p : Fin 256) (k : Fin 1024) :
    k0_pay1 (F := Ideal) (k0_pay3 X W) H C0 (k0_pay4 X W H MI WHI BI) (k0_pay5 X W H MF WHF BF) MC WHC BC MCELL (ix2 p k)
      = Cert.LstmSpec.cellAt a (⟨r0 + p.val, by have := p.isLt; omega⟩ : Fin 2048) k := by
  rw [pay1_apply, pay4_apply, pay5_apply,
    tilePre_eq_gatePre 2048 (by omega) r0 hr0 a.x a.h0 a.mC a.wxc a.whc a.bc X H MC W WHC BC ht.hx ht.hh ht.hmc ht.hw2 ht.hwhc ht.hbc p k,
    tilePre_eq_gatePre 0 (by omega) r0 hr0 a.x a.h0 a.mI a.wxi a.whi a.bi X H MI W WHI BI ht.hx ht.hh ht.hmi ht.hw0 ht.hwhi ht.hbi p k,
    tilePre_eq_gatePre 1024 (by omega) r0 hr0 a.x a.h0 a.mF a.wxf a.whf a.bf X H MF W WHF BF ht.hx ht.hh ht.hmf ht.hw1 ht.hwhf ht.hbf p k,
    ht.hc0 p k, ht.hmcell p k]
  rfl

/-- The body's new hidden state on the tile is the specification's at the tile's rows. -/
theorem hidden_tile (ht : IsTile a r0 hr0 X H C0 MI MF MC MO MCELL W WHI WHF WHC WHO BI BF BC BO) (p : Fin 256) (k : Fin 1024) :
    k0_pay2 (F := Ideal) (k0_pay3 X W) H C0 (k0_pay4 X W H MI WHI BI) (k0_pay5 X W H MF WHF BF) MC WHC BC MCELL MO WHO BO (ix2 p k)
      = Cert.LstmSpec.hiddenAt a (⟨r0 + p.val, by have := p.isLt; omega⟩ : Fin 2048) k := by
  rw [pay2_apply, cell_tile ht p k,
    tilePre_eq_gatePre 3072 (by omega) r0 hr0 a.x a.h0 a.mO a.wxo a.who a.bo X H MO W WHO BO ht.hx ht.hh ht.hmo ht.hw3 ht.hwho ht.hbo p k]
  rfl

end Cert.KernelIdeal.Cell

end
-- ==== Proof.IdealValue.lean ====
/-
  The LSTM cell's kernel, from tiles to arrays: after the run the two result arrays are the specification's hidden
  and cell states of the twenty argument arrays.

  At grid point t the eight batch-tiled windows hold rows 256·t … 256·t + 255 of x, h0, c0 and the masks, and the
  nine resident windows hold the whole stacked weights, recurrent weights and bias rows as the host prepared them;
  so the seventeen buffers are the tile at row 256·t of the argument arrays, and what the body writes back is rows
  256·t … 256·t + 255 of the specification's arrays. The eight blocks tile the 2048 rows, hence the whole arrays.
-/
import proofs.«144616_j22445499089342_2_alg».proof.Proof.IdealRun
import proofs.«144616_j22445499089342_2_alg».proof.Proof.EntryValues
import proofs.«144616_j22445499089342_2_alg».proof.Proof.TileSpec
import Idealize.ShloMosaic.Lib.Pipeline.Value

set_option maxRecDepth 16384

noncomputable section

namespace Cert.KernelIdeal.Cell

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The twenty argument arrays on core `c`, as the specification's record. -/
def inputsOf (c : Dev nD) : Cert.LstmSpec.Inputs :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14),
   m ((c : Thread nD τ).loc main_arg15),
   m ((c : Thread nD τ).loc main_arg16),
   m ((c : Thread nD τ).loc main_arg17),
   m ((c : Thread nD τ).loc main_arg18),
   m ((c : Thread nD τ).loc main_arg19)⟩

theorem hz : (![0, 0] : Fin 2 → Nat) = fun _ => 0 := funext fun ax => by fin_cases ax <;> rfl

theorem t_lt (t : Fin cfg0.N) : t.val < 8 := by
  have h := t.isLt
  have e : cfg0.N = 8 := N_0
  omega

/-! ## The printed index maps, decided over the eight grid points -/

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = t.val ∧ win0_2.index t (1 : Fin 2) = 0 :=
  (by decide +kernel : ∀ t : Fin grid0.N, _)
theorem idx_3 : ∀ t : Fin cfg0.N, win0_3.index t (0 : Fin 2) = t.val ∧ win0_3.index t (1 : Fin 2) = 0 :=
  (by decide +kernel : ∀ t : Fin grid0.N, _)
theorem idx_4 : ∀ t : Fin cfg0.N, win0_4.index t (0 : Fin 2) = t.val ∧ win0_4.index t (1 : Fin 2) = 0 :=
  (by decide +kernel : ∀ t : Fin grid0.N, _)
theorem idx_5 : ∀ t : Fin cfg0.N, win0_5.index t (0 : Fin 2) = t.val ∧ win0_5.index t (1 : Fin 2) = 0 :=
  (by decide +kernel : ∀ t : Fin grid0.N, _)
theorem idx_6 : ∀ t : Fin cfg0.N, win0_6.index t (0 : Fin 2) = t.val ∧ win0_6.index t (1 : Fin 2) = 0 :=
  (by decide +kernel : ∀ t : Fin grid0.N, _)
theorem idx_7 : ∀ t : Fin cfg0.N, win0_7.index t (0 : Fin 2) = t.val ∧ win0_7.index t (1 : Fin 2) = 0 :=
  (by decide +kernel : ∀ t : Fin grid0.N, _)
theorem idx_17 : ∀ t : Fin cfg0.N, win0_17.index t (0 : Fin 2) = t.val ∧ win0_17.index t (1 : Fin 2) = 0 :=
  (by decide +kernel : ∀ t : Fin grid0.N, _)
theorem idx_18 : ∀ t : Fin cfg0.N, win0_18.index t (0 : Fin 2) = t.val ∧ win0_18.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 2) = 0 ∧ win0_12.index t (1 : Fin 2) = 0 :=
  (by decide +kernel : ∀ t : Fin grid0.N, _)
theorem idx_13 : ∀ t : Fin cfg0.N, win0_13.index t (0 : Fin 2) = 0 ∧ win0_13.index t (1 : Fin 2) = 0 :=
  (by decide +kernel : ∀ t : Fin grid0.N, _)
theorem idx_14 : ∀ t : Fin cfg0.N, win0_14.index t (0 : Fin 2) = 0 ∧ win0_14.index t (1 : Fin 2) = 0 :=
  (by decide +kernel : ∀ t : Fin grid0.N, _)
theorem idx_15 : ∀ t : Fin cfg0.N, win0_15.index t (0 : Fin 2) = 0 ∧ win0_15.index t (1 : Fin 2) = 0 :=
  (by decide +kernel : ∀ t : Fin grid0.N, _)
theorem idx_16 : ∀ t : Fin cfg0.N, win0_16.index t (0 : Fin 2) = 0 ∧ win0_16.index t (1 : Fin 2) = 0 :=
  (by decide +kernel : ∀ t : Fin grid0.N, _)

/-! ## The blocks the body reads at point `t` -/

theorem blk_0 (c : Dev nD) (t : Fin cfg0.N) (p : Fin 256) (j : Fin 1024) :
    iblk m c 0 t (ix2 p j) = m ((c : Thread nD τ).loc main_arg0) (ix2 (⟨256 * t.val + p.val, by have := t_lt t; have := p.isLt; omega⟩ : Fin 2048) j) := by
  show V m c main_arg0 (((cfg0.win 0).blk t).view.emb (ix2 p j)) = _
  rw [entry_main_arg0]
  refine congrArg _ (funext fun ax => Fin.ext ?_)
  obtain ⟨e0, e1⟩ := idx_0 t
  match ax with
  | ⟨0, _⟩ => show win0_0.index t (0 : Fin 2) * 256 + 1 * p.val = 256 * t.val + p.val; omega
  | ⟨1, _⟩ => show win0_0.index t (1 : Fin 2) * 1024 + 1 * j.val = j.val; omega
theorem blk_1 (c : Dev nD) (t : Fin cfg0.N) (p : Fin 256) (j : Fin 1024) :
    iblk m c 1 t (ix2 p j) = m ((c : Thread nD τ).loc main_arg1) (ix2 (⟨256 * t.val + p.val, by have := t_lt t; have := p.isLt; omega⟩ : Fin 2048) j) := by
  show V m c main_arg1 (((cfg0.win 1).blk t).view.emb (ix2 p j)) = _
  rw [entry_main_arg1]
  refine congrArg _ (funext fun ax => Fin.ext ?_)
  obtain ⟨e0, e1⟩ := idx_1 t
  match ax with
  | ⟨0, _⟩ => show win0_1.index t (0 : Fin 2) * 256 + 1 * p.val = 256 * t.val + p.val; omega
  | ⟨1, _⟩ => show win0_1.index t (1 : Fin 2) * 1024 + 1 * j.val = j.val; omega
theorem blk_2 (c : Dev nD) (t : Fin cfg0.N) (p : Fin 256) (j : Fin 1024) :
    iblk m c 2 t (ix2 p j) = m ((c : Thread nD τ).loc main_arg2) (ix2 (⟨256 * t.val + p.val, by have := t_lt t; have := p.isLt; omega⟩ : Fin 2048) j) := by
  show V m c main_arg2 (((cfg0.win 2).blk t).view.emb (ix2 p j)) = _
  rw [entry_main_arg2]
  refine congrArg _ (funext fun ax => Fin.ext ?_)
  obtain ⟨e0, e1⟩ := idx_2 t
  match ax with
  | ⟨0, _⟩ => show win0_2.index t (0 : Fin 2) * 256 + 1 * p.val = 256 * t.val + p.val; omega
  | ⟨1, _⟩ => show win0_2.index t (1 : Fin 2) * 1024 + 1 * j.val = j.val; omega
theorem blk_3 (c : Dev nD) (t : Fin cfg0.N) (p : Fin 256) (j : Fin 1024) :
    iblk m c 3 t (ix2 p j) = m ((c : Thread nD τ).loc main_arg15) (ix2 (⟨256 * t.val + p.val, by have := t_lt t; have := p.isLt; omega⟩ : Fin 2048) j) := by
  show V m c main_arg15 (((cfg0.win 3).blk t).view.emb (ix2 p j)) = _
  rw [entry_main_arg15]
  refine congrArg _ (funext fun ax => Fin.ext ?_)
  obtain ⟨e0, e1⟩ := idx_3 t
  match ax with
  | ⟨0, _⟩ => show win0_3.index t (0 : Fin 2) * 256 + 1 * p.val = 256 * t.val + p.val; omega
  | ⟨1, _⟩ => show win0_3.index t (1 : Fin 2) * 1024 + 1 * j.val = j.val; omega
theorem blk_4 (c : Dev nD) (t : Fin cfg0.N) (p : Fin 256) (j : Fin 1024) :
    iblk m c 4 t (ix2 p j) = m ((c : Thread nD τ).loc main_arg16) (ix2 (⟨256 * t.val + p.val, by have := t_lt t; have := p.isLt; omega⟩ : Fin 2048) j) := by
  show V m c main_arg16 (((cfg0.win 4).blk t).view.emb (ix2 p j)) = _
  rw [entry_main_arg16]
  refine congrArg _ (funext fun ax => Fin.ext ?_)
  obtain ⟨e0, e1⟩ := idx_4 t
  match ax with
  | ⟨0, _⟩ => show win0_4.index t (0 : Fin 2) * 256 + 1 * p.val = 256 * t.val + p.val; omega
  | ⟨1, _⟩ => show win0_4.index t (1 : Fin 2) * 1024 + 1 * j.val = j.val; omega
theorem blk_5 (c : Dev nD) (t : Fin cfg0.N) (p : Fin 256) (j : Fin 1024) :
    iblk m c 5 t (ix2 p j) = m ((c : Thread nD τ).loc main_arg17) (ix2 (⟨256 * t.val + p.val, by have := t_lt t; have := p.isLt; omega⟩ : Fin 2048) j) := by
  show V m c main_arg17 (((cfg0.win 5).blk t).view.emb (ix2 p j)) = _
  rw [entry_main_arg17]
  refine congrArg _ (funext fun ax => Fin.ext ?_)
  obtain ⟨e0, e1⟩ := idx_5 t
  match ax with
  | ⟨0, _⟩ => show win0_5.index t (0 : Fin 2) * 256 + 1 * p.val = 256 * t.val + p.val; omega
  | ⟨1, _⟩ => show win0_5.index t (1 : Fin 2) * 1024 + 1 * j.val = j.val; omega
theorem blk_6 (c : Dev nD) (t : Fin cfg0.N) (p : Fin 256) (j : Fin 1024) :
    iblk m c 6 t (ix2 p j) = m ((c : Thread nD τ).loc main_arg18) (ix2 (⟨256 * t.val + p.val, by have := t_lt t; have := p.isLt; omega⟩ : Fin 2048) j) := by
  show V m c main_arg18 (((cfg0.win 6).blk t).view.emb (ix2 p j)) = _
  rw [entry_main_arg18]
  refine congrArg _ (funext fun ax => Fin.ext ?_)
  obtain ⟨e0, e1⟩ := idx_6 t
  match ax with
  | ⟨0, _⟩ => show win0_6.index t (0 : Fin 2) * 256 + 1 * p.val = 256 * t.val + p.val; omega
  | ⟨1, _⟩ => show win0_6.index t (1 : Fin 2) * 1024 + 1 * j.val = j.val; omega
theorem blk_7 (c : Dev nD) (t : Fin cfg0.N) (p : Fin 256) (j : Fin 1024) :
    iblk m c 7 t (ix2 p j) = m ((c : Thread nD τ).loc main_arg19) (ix2 (⟨256 * t.val + p.val, by have := t_lt t; have := p.isLt; omega⟩ : Fin 2048) j) := by
  show V m c main_arg19 (((cfg0.win 7).blk t).view.emb (ix2 p j)) = _
  rw [entry_main_arg19]
  refine congrArg _ (funext fun ax => Fin.ext ?_)
  obtain ⟨e0, e1⟩ := idx_7 t
  match ax with
  | ⟨0, _⟩ => show win0_7.index t (0 : Fin 2) * 256 + 1 * p.val = 256 * t.val + p.val; omega
  | ⟨1, _⟩ => show win0_7.index t (1 : Fin 2) * 1024 + 1 * j.val = j.val; omega

theorem blk_8 (c : Dev nD) (t : Fin cfg0.N) (y : S4096x1024.Idx) :
    iblk m c 8 t y = (V m c main_v1 : S4096x1024.Idx → EReal) y := by
  show V m c main_v1 (((cfg0.win 8).blk t).view.emb y) = _
  refine congrArg _ (funext fun ax => Fin.ext ?_)
  obtain ⟨e0, e1⟩ := idx_8 t
  match ax with
  | ⟨0, _⟩ => show win0_8.index t (0 : Fin 2) * 4096 + 1 * (y 0).val = (y 0).val; omega
  | ⟨1, _⟩ => show win0_8.index t (1 : Fin 2) * 1024 + 1 * (y 1).val = (y 1).val; omega
theorem blk_9 (c : Dev nD) (t : Fin cfg0.N) (y : S1024x1024.Idx) :
    iblk m c 9 t y = (V m c main_v2 : S1024x1024.Idx → EReal) y := by
  show V m c main_v2 (((cfg0.win 9).blk t).view.emb y) = _
  refine congrArg _ (funext fun ax => Fin.ext ?_)
  obtain ⟨e0, e1⟩ := idx_9 t
  match ax with
  | ⟨0, _⟩ => show win0_9.index t (0 : Fin 2) * 1024 + 1 * (y 0).val = (y 0).val; omega
  | ⟨1, _⟩ => show win0_9.index t (1 : Fin 2) * 1024 + 1 * (y 1).val = (y 1).val; omega
theorem blk_10 (c : Dev nD) (t : Fin cfg0.N) (y : S1024x1024.Idx) :
    iblk m c 10 t y = (V m c main_v3 : S1024x1024.Idx → EReal) y := by
  show V m c main_v3 (((cfg0.win 10).blk t).view.emb y) = _
  refine congrArg _ (funext fun ax => Fin.ext ?_)
  obtain ⟨e0, e1⟩ := idx_10 t
  match ax with
  | ⟨0, _⟩ => show win0_10.index t (0 : Fin 2) * 1024 + 1 * (y 0).val = (y 0).val; omega
  | ⟨1, _⟩ => show win0_10.index t (1 : Fin 2) * 1024 + 1 * (y 1).val = (y 1).val; omega
theorem blk_11 (c : Dev nD) (t : Fin cfg0.N) (y : S1024x1024.Idx) :
    iblk m c 11 t y = (V m c main_v4 : S1024x1024.Idx → EReal) y := by
  show V m c main_v4 (((cfg0.win 11).blk t).view.emb y) = _
  refine congrArg _ (funext fun ax => Fin.ext ?_)
  obtain ⟨e0, e1⟩ := idx_11 t
  match ax with
  | ⟨0, _⟩ => show win0_11.index t (0 : Fin 2) * 1024 + 1 * (y 0).val = (y 0).val; omega
  | ⟨1, _⟩ => show win0_11.index t (1 : Fin 2) * 1024 + 1 * (y 1).val = (y 1).val; omega
theorem blk_12 (c : Dev nD) (t : Fin cfg0.N) (y : S1024x1024.Idx) :
    iblk m c 12 t y = (V m c main_v5 : S1024x1024.Idx → EReal) y := by
  show V m c main_v5 (((cfg0.win 12).blk t).view.emb y) = _
  refine congrArg _ (funext fun ax => Fin.ext ?_)
  obtain ⟨e0, e1⟩ := idx_12 t
  match ax with
  | ⟨0, _⟩ => show win0_12.index t (0 : Fin 2) * 1024 + 1 * (y 0).val = (y 0).val; omega
  | ⟨1, _⟩ => show win0_12.index t (1 : Fin 2) * 1024 + 1 * (y 1).val = (y 1).val; omega
theorem blk_13 (c : Dev nD) (t : Fin cfg0.N) (y : S1x1024.Idx) :
    iblk m c 13 t y = (V m c main_v6 : S1x1024.Idx → EReal) y := by
  show V m c main_v6 (((cfg0.win 13).blk t).view.emb y) = _
  refine congrArg _ (funext fun ax => Fin.ext ?_)
  obtain ⟨e0, e1⟩ := idx_13 t
  match ax with
  | ⟨0, _⟩ => show win0_13.index t (0 : Fin 2) * 1 + 1 * (y 0).val = (y 0).val; omega
  | ⟨1, _⟩ => show win0_13.index t (1 : Fin 2) * 1024 + 1 * (y 1).val = (y 1).val; omega
theorem blk_14 (c : Dev nD) (t : Fin cfg0.N) (y : S1x1024.Idx) :
    iblk m c 14 t y = (V m c main_v7 : S1x1024.Idx → EReal) y := by
  show V m c main_v7 (((cfg0.win 14).blk t).view.emb y) = _
  refine congrArg _ (funext fun ax => Fin.ext ?_)
  obtain ⟨e0, e1⟩ := idx_14 t
  match ax with
  | ⟨0, _⟩ => show win0_14.index t (0 : Fin 2) * 1 + 1 * (y 0).val = (y 0).val; omega
  | ⟨1, _⟩ => show win0_14.index t (1 : Fin 2) * 1024 + 1 * (y 1).val = (y 1).val; omega
theorem blk_15 (c : Dev nD) (t : Fin cfg0.N) (y : S1x1024.Idx) :
    iblk m c 15 t y = (V m c main_v8 : S1x1024.Idx → EReal) y := by
  show V m c main_v8 (((cfg0.win 15).blk t).view.emb y) = _
  refine congrArg _ (funext fun ax => Fin.ext ?_)
  obtain ⟨e0, e1⟩ := idx_15 t
  match ax with
  | ⟨0, _⟩ => show win0_15.index t (0 : Fin 2) * 1 + 1 * (y 0).val = (y 0).val; omega
  | ⟨1, _⟩ => show win0_15.index t (1 : Fin 2) * 1024 + 1 * (y 1).val = (y 1).val; omega
theorem blk_16 (c : Dev nD) (t : Fin cfg0.N) (y : S1x1024.Idx) :
    iblk m c 16 t y = (V m c main_v9 : S1x1024.Idx → EReal) y := by
  show V m c main_v9 (((cfg0.win 16).blk t).view.emb y) = _
  refine congrArg _ (funext fun ax => Fin.ext ?_)
  obtain ⟨e0, e1⟩ := idx_16 t
  match ax with
  | ⟨0, _⟩ => show win0_16.index t (0 : Fin 2) * 1 + 1 * (y 0).val = (y 0).val; omega
  | ⟨1, _⟩ => show win0_16.index t (1 : Fin 2) * 1024 + 1 * (y 1).val = (y 1).val; omega

/-- At point `t` the seventeen input blocks are the tile at row 256·t of the argument arrays. -/
theorem tile_at (c : Dev nD) (t : Fin cfg0.N) :
    IsTile (inputsOf m c) (256 * t.val) (by have := t_lt t; omega)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) where
  hx p j := blk_0 m c t p j
  hh p j := blk_1 m c t p j
  hc0 p j := blk_2 m c t p j
  hmi p j := blk_3 m c t p j
  hmf p j := blk_4 m c t p j
  hmc p j := blk_5 m c t p j
  hmo p j := blk_6 m c t p j
  hmcell p j := blk_7 m c t p j
  hw0 k j := (blk_8 m c t _).trans (found_stacked_0 m c k j)
  hw1 k j := (blk_8 m c t _).trans (found_stacked_1 m c k j)
  hw2 k j := (blk_8 m c t _).trans (found_stacked_2 m c k j)
  hw3 k j := (blk_8 m c t _).trans (found_stacked_3 m c k j)
  hwhi k j := (blk_9 m c t _).trans (found_recurrent_7 m c _)
  hwhf k j := (blk_10 m c t _).trans (found_recurrent_8 m c _)
  hwhc k j := (blk_11 m c t _).trans (found_recurrent_9 m c _)
  hwho k j := (blk_12 m c t _).trans (found_recurrent_10 m c _)
  hbi k := (blk_13 m c t _).trans (found_bias_11 m c k)
  hbf k := (blk_14 m c t _).trans (found_bias_12 m c k)
  hbc k := (blk_15 m c t _).trans (found_bias_13 m c k)
  hbo k := (blk_16 m c t _).trans (found_bias_14 m c k)

/-! ## The hidden state: output window 17 -/

/-- What grid point `t` writes back is rows 256·t … 256·t + 255 of the specification's hidden state. -/
theorem flushed17_eq (c : Dev nD) (t : Fin cfg0.N) :
    (dats m 0 c).flushed 17 t = ((cfg0.win 17).blk t).view.read (Elt Ideal) (Cert.LstmSpec.hidden (inputsOf m c)) := by
  show (cfg0.win 17).cut (grid0.coords t) ((dats m 0 c).after 17 t) = _
  rw [after17]
  unfold newHidden
  rw [View.canon_unit_zero hz]
  simp only [View.ld_unit_zero (S := S256x1024) hz, View.ld_unit_zero (S := S4096x1024) hz, View.ld_unit_zero (S := S1024x1024) hz,
    View.ld_unit_zero (S := S1x1024) hz]
  refine funext fun (y : S256x1024.Idx) => ?_
  obtain ⟨p, k, rfl⟩ : ∃ (p : Fin 256) (k : Fin 1024), y = ix2 p k := ⟨y 0, y 1, eq_ix2 y⟩
  refine (hidden_tile (tile_at m c t) p k).trans ?_
  refine (Cert.LstmSpec.hidden_ix2 (inputsOf m c) _ k).symm.trans ?_
  show Cert.LstmSpec.hidden (inputsOf m c) (ix2 (⟨256 * t.val + p.val, by have := t_lt t; have := p.isLt; omega⟩ : Fin 2048) k)
    = Cert.LstmSpec.hidden (inputsOf m c) (((cfg0.win 17).blk t).view.emb (ix2 p k))
  refine congrArg _ (funext fun ax => Fin.ext ?_)
  obtain ⟨e0, e1⟩ := idx_17 t
  match ax with
  | ⟨0, _⟩ => show 256 * t.val + p.val = win0_17.index t (0 : Fin 2) * 256 + 1 * p.val; omega
  | ⟨1, _⟩ => show k.val = win0_17.index t (1 : Fin 2) * 1024 + 1 * k.val; omega

/-- An index of the array is in point `t`'s block iff each coordinate is in the block's range. -/
theorem mem_blk17 (t : Fin cfg0.N) (i : S2048x1024.Idx) :
    i ∈ ((cfg0.win 17).blk t).view.set ↔ ∀ ax : Fin 2, win0_17.index t ax * S256x1024.size ax ≤ (i ax).val ∧ (i ax).val < win0_17.index t ax * S256x1024.size ax + S256x1024.size ax := by
  show i ∈ ((View.whole main_v10_0).slice (win0_17.rect t)).set ↔ _
  rw [View.set_slice_whole, Rect.mem_set_unit]
  exact Iff.rfl

/-- Every row lies in the block of the point that is its quotient by 256: the eight blocks tile the array. -/
theorem cover17 (i : S2048x1024.Idx) : ∃ t : Fin cfg0.N, (cfg0.win 17).flush t = true ∧ i ∈ ((cfg0.win 17).blk t).view.set := by
  have hi0 : (i 0).val < 2048 := (i 0).isLt
  have hi1 : (i 1).val < 1024 := (i 1).isLt
  have ht : (i 0).val / 256 < cfg0.N := by rw [show cfg0.N = 8 from N_0]; omega
  obtain ⟨e0, e1⟩ := idx_17 ⟨(i 0).val / 256, ht⟩
  refine ⟨⟨(i 0).val / 256, ht⟩, flush0_17 _, ?_⟩
  rw [mem_blk17]
  intro ax
  match ax with
  | ⟨0, _⟩ =>
    show win0_17.index ⟨(i 0).val / 256, ht⟩ (0 : Fin 2) * 256 ≤ (i 0).val ∧ (i 0).val < win0_17.index ⟨(i 0).val / 256, ht⟩ (0 : Fin 2) * 256 + 256
    have e0' : win0_17.index ⟨(i 0).val / 256, ht⟩ (0 : Fin 2) = (i 0).val / 256 := e0
    omega
  | ⟨1, _⟩ =>
    show win0_17.index ⟨(i 0).val / 256, ht⟩ (1 : Fin 2) * 1024 ≤ (i 1).val ∧ (i 1).val < win0_17.index ⟨(i 0).val / 256, ht⟩ (1 : Fin 2) * 1024 + 1024
    omega

/-- The array after the run is the specification's hidden state of the argument arrays. -/
theorem final17 (c : Dev nD) : (dats m 0 c).arrAt 17 cfg0.N = Cert.LstmSpec.hidden (inputsOf m c) :=
  (dats m 0 c).arrAt_eq_of_cover 17 _ (fun t _ => flushed17_eq m c t) cover17

/-! ## The cell state: output window 18 -/

/-- What grid point `t` writes back is rows 256·t … 256·t + 255 of the specification's cell state. -/
theorem flushed18_eq (c : Dev nD) (t : Fin cfg0.N) :
    (dats m 0 c).flushed 18 t = ((cfg0.win 18).blk t).view.read (Elt Ideal) (Cert.LstmSpec.cell (inputsOf m c)) := by
  show (cfg0.win 18).cut (grid0.coords t) ((dats m 0 c).after 18 t) = _
  rw [after18]
  unfold newCell
  rw [View.canon_unit_zero hz]
  simp only [View.ld_unit_zero (S := S256x1024) hz, View.ld_unit_zero (S := S4096x1024) hz, View.ld_unit_zero (S := S1024x1024) hz,
    View.ld_unit_zero (S := S1x1024) hz]
  refine funext fun (y : S256x1024.Idx) => ?_
  obtain ⟨p, k, rfl⟩ : ∃ (p : Fin 256) (k : Fin 1024), y = ix2 p k := ⟨y 0, y 1, eq_ix2 y⟩
  refine (cell_tile (tile_at m c t) p k).trans ?_
  refine (Cert.LstmSpec.cell_ix2 (inputsOf m c) _ k).symm.trans ?_
  show Cert.LstmSpec.cell (inputsOf m c) (ix2 (⟨256 * t.val + p.val, by have := t_lt t; have := p.isLt; omega⟩ : Fin 2048) k)
    = Cert.LstmSpec.cell (inputsOf m c) (((cfg0.win 18).blk t).view.emb (ix2 p k))
  refine congrArg _ (funext fun ax => Fin.ext ?_)
  obtain ⟨e0, e1⟩ := idx_18 t
  match ax with
  | ⟨0, _⟩ => show 256 * t.val + p.val = win0_18.index t (0 : Fin 2) * 256 + 1 * p.val; omega
  | ⟨1, _⟩ => show k.val = win0_18.index t (1 : Fin 2) * 1024 + 1 * k.val; omega

/-- An index of the array is in point `t`'s block iff each coordinate is in the block's range. -/
theorem mem_blk18 (t : Fin cfg0.N) (i : S2048x1024.Idx) :
    i ∈ ((cfg0.win 18).blk t).view.set ↔ ∀ ax : Fin 2, win0_18.index t ax * S256x1024.size ax ≤ (i ax).val ∧ (i ax).val < win0_18.index t ax * S256x1024.size ax + S256x1024.size ax := by
  show i ∈ ((View.whole main_v10_1).slice (win0_18.rect t)).set ↔ _
  rw [View.set_slice_whole, Rect.mem_set_unit]
  exact Iff.rfl

/-- Every row lies in the block of the point that is its quotient by 256: the eight blocks tile the array. -/
theorem cover18 (i : S2048x1024.Idx) : ∃ t : Fin cfg0.N, (cfg0.win 18).flush t = true ∧ i ∈ ((cfg0.win 18).blk t).view.set := by
  have hi0 : (i 0).val < 2048 := (i 0).isLt
  have hi1 : (i 1).val < 1024 := (i 1).isLt
  have ht : (i 0).val / 256 < cfg0.N := by rw [show cfg0.N = 8 from N_0]; omega
  obtain ⟨e0, e1⟩ := idx_18 ⟨(i 0).val / 256, ht⟩
  refine ⟨⟨(i 0).val / 256, ht⟩, flush0_18 _, ?_⟩
  rw [mem_blk18]
  intro ax
  match ax with
  | ⟨0, _⟩ =>
    show win0_18.index ⟨(i 0).val / 256, ht⟩ (0 : Fin 2) * 256 ≤ (i 0).val ∧ (i 0).val < win0_18.index ⟨(i 0).val / 256, ht⟩ (0 : Fin 2) * 256 + 256
    have e0' : win0_18.index ⟨(i 0).val / 256, ht⟩ (0 : Fin 2) = (i 0).val / 256 := e0
    omega
  | ⟨1, _⟩ =>
    show win0_18.index ⟨(i 0).val / 256, ht⟩ (1 : Fin 2) * 1024 ≤ (i 1).val ∧ (i 1).val < win0_18.index ⟨(i 0).val / 256, ht⟩ (1 : Fin 2) * 1024 + 1024
    omega

/-- The array after the run is the specification's cell state of the argument arrays. -/
theorem final18 (c : Dev nD) : (dats m 0 c).arrAt 18 cfg0.N = Cert.LstmSpec.cell (inputsOf m c) :=
  (dats m 0 c).arrAt_eq_of_cover 18 _ (fun t _ => flushed18_eq m c t) cover18

/-! ## The run, stated at the specification -/

/-- Every weakly fair execution of the kernel's program terminates with the two results at the specification's
    hidden and cell states of the argument arrays, and the arguments as launched. -/
theorem run_spec : θ_run defs (onTc (τ := τ) (main (F := Ideal))) ⟨m, fun _ => 0, ρ⟩ fun r => ∀ c : Dev nD,
      r.2.mem ((c.tc : Thread nD τ).loc main_v10_0) = Cert.LstmSpec.hidden (inputsOf m c)
      ∧ r.2.mem ((c.tc : Thread nD τ).loc main_v10_1) = Cert.LstmSpec.cell (inputsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨((h c).1 17).trans (final17 m c), ((h c).1 18).trans (final18 m c),
      ((h c).1 0).trans (((dats m 0 c).arrAt_in 0 rfl _).trans ((A_eq m c 0).trans (entry_main_arg0 m c))),
      ((h c).1 1).trans (((dats m 0 c).arrAt_in 1 rfl _).trans ((A_eq m c 1).trans (entry_main_arg1 m c))),
      ((h c).1 2).trans (((dats m 0 c).arrAt_in 2 rfl _).trans ((A_eq m c 2).trans (entry_main_arg2 m c))),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).2 main_arg9 (Pipeline.mem_restRefs_of main_arg9 (by decide) (by decide))).trans (entry_main_arg9 m c),
      ((h c).2 main_arg10 (Pipeline.mem_restRefs_of main_arg10 (by decide) (by decide))).trans (entry_main_arg10 m c),
      ((h c).2 main_arg11 (Pipeline.mem_restRefs_of main_arg11 (by decide) (by decide))).trans (entry_main_arg11 m c),
      ((h c).2 main_arg12 (Pipeline.mem_restRefs_of main_arg12 (by decide) (by decide))).trans (entry_main_arg12 m c),
      ((h c).2 main_arg13 (Pipeline.mem_restRefs_of main_arg13 (by decide) (by decide))).trans (entry_main_arg13 m c),
      ((h c).2 main_arg14 (Pipeline.mem_restRefs_of main_arg14 (by decide) (by decide))).trans (entry_main_arg14 m c),
      ((h c).1 3).trans (((dats m 0 c).arrAt_in 3 rfl _).trans ((A_eq m c 3).trans (entry_main_arg15 m c))),
      ((h c).1 4).trans (((dats m 0 c).arrAt_in 4 rfl _).trans ((A_eq m c 4).trans (entry_main_arg16 m c))),
      ((h c).1 5).trans (((dats m 0 c).arrAt_in 5 rfl _).trans ((A_eq m c 5).trans (entry_main_arg17 m c))),
      ((h c).1 6).trans (((dats m 0 c).arrAt_in 6 rfl _).trans ((A_eq m c 6).trans (entry_main_arg18 m c))),
      ((h c).1 7).trans (((dats m 0 c).arrAt_in 7 rfl _).trans ((A_eq m c 7).trans (entry_main_arg19 m c)))⟩) (run_main m ρ)

end Cert.KernelIdeal.Cell

end
-- ==== Proof.RefStages.lean ====
/-
  The reference program, stage by stage, read at an index, and joined to the LSTM cell's specification.

  The reference stacks the four masked copies of h0, the four recurrent weights and the four input-side weights
  along a new leading axis of extent 4 (gate g in slot g), forms the two batched products

      P[g,k,b] = Σ_j Wx_g[k,j]·x[b,j]         (transposed to [g,b,k])
      Q[g,b,k] = Σ_j (h0[b,j]·M_g[b,j])·Wh_g[k,j]

  adds them, and for each gate takes slot g, drops the unit axis and adds the bias row: that is the specification's
  pre-activation of gate g, up to the order of the two factors inside the first sum. The sigmoid is written out as
  1/(1 + e^(−t)) with the constant 1 given by its binary32 word; the cell and hidden states are then the
  specification's expressions verbatim. Everything is an identity of extended reals: the only law used is the
  commutativity of one product.
-/
import proofs.«144616_j22445499089342_2_alg».proof.Proof.Gen.ReferenceIdeal.Read
import proofs.«144616_j22445499089342_2_alg».proof.Proof.LstmSpec
import Idealize.ShloMosaic.Lib.Pipeline.Value
import Idealize.ShloMosaic.Lib.ValueIdx
import Idealize.ShloMosaic.PureOps.Ideal
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read

/-! ## Indices named by their coordinates -/

/-- A rank-1 index with coordinate `a` is `ix1 a`. -/
theorem eq_ix1_of {n : Nat} (i : (⟨1, ![n]⟩ : Shape).Idx) (a : Fin n) (h0 : (i 0).val = a.val) : i = ix1 a := by
  funext d; match d with | ⟨0, _⟩ => exact Fin.ext h0

/-- A rank-2 index with coordinates `a`, `b` is `ix2 a b`. -/
theorem eq_ix2_of {n0 n1 : Nat} (i : (⟨2, ![n0, n1]⟩ : Shape).Idx) (a : Fin n0) (b : Fin n1)
    (h0 : (i 0).val = a.val) (h1 : (i 1).val = b.val) : i = ix2 a b := by
  funext d; match d with | ⟨0, _⟩ => exact Fin.ext h0 | ⟨1, _⟩ => exact Fin.ext h1

/-- A rank-3 index with coordinates `a`, `b`, `c` is `ix3 a b c`. -/
theorem eq_ix3_of {n0 n1 n2 : Nat} (i : (⟨3, ![n0, n1, n2]⟩ : Shape).Idx) (a : Fin n0) (b : Fin n1) (c : Fin n2)
    (h0 : (i 0).val = a.val) (h1 : (i 1).val = b.val) (h2 : (i 2).val = c.val) : i = ix3 a b c := by
  funext d; match d with | ⟨0, _⟩ => exact Fin.ext h0 | ⟨1, _⟩ => exact Fin.ext h1 | ⟨2, _⟩ => exact Fin.ext h2

/-- The row of the flat position r·1024 + k in a [2048,1024] array is r … -/
theorem unflatten_row (r : Fin 2048) (k : Fin 1024) : (r.val * 1024 + k.val) / 1024 % 2048 = r.val := by
  have := r.isLt; have := k.isLt; omega
/-- … and its column is k. -/
theorem unflatten_col (r : Fin 2048) (k : Fin 1024) : (r.val * 1024 + k.val) % 1024 = k.val := by
  have := r.isLt; have := k.isLt; omega

/-! ## Four arrays stacked along a new leading axis -/

/-- The `g`-th of four things. -/
def pick4 {α : Type} (g : Fin 4) (a b c d : α) : α :=
  match g with | ⟨0, _⟩ => a | ⟨1, _⟩ => b | ⟨2, _⟩ => c | ⟨3, _⟩ => d

/-- Four [1,a,b] arrays joined along axis 0 into a [4,a,b] array: slot `g` of the result is the `g`-th piece. -/
theorem stack4_apply {α : Type} {a b : Nat} (f0 f1 f2 f3 : (⟨3, ![1, a, b]⟩ : Shape).Idx → α)
    (h : Shape.Concatenates [⟨3, ![1, a, b]⟩, ⟨3, ![1, a, b]⟩, ⟨3, ![1, a, b]⟩, ⟨3, ![1, a, b]⟩] ⟨3, ![4, a, b]⟩ 0)
    (g : Fin 4) (r : Fin a) (k : Fin b) :
    concatenate ⟨3, ![4, a, b]⟩ 0 [⟨⟨3, ![1, a, b]⟩, f0⟩, ⟨⟨3, ![1, a, b]⟩, f1⟩, ⟨⟨3, ![1, a, b]⟩, f2⟩, ⟨⟨3, ![1, a, b]⟩, f3⟩] h (ix3 g r k)
      = pick4 g f0 f1 f2 f3 (ix3 0 r k) := by
  have hi : ∀ (g' : Fin 4) (d : Fin 3), d.cast rfl ≠ (0 : Fin 3) → ((ix3 (0 : Fin 1) r k) d).val = ((ix3 g' r k) (d.cast rfl)).val :=
    fun g' d hd => match d with
      | ⟨0, _⟩ => absurd rfl hd
      | ⟨1, _⟩ => rfl
      | ⟨2, _⟩ => rfl
  match g with
  | ⟨0, _⟩ => exact concatenate_apply_piece 0 [⟨⟨3, ![1, a, b]⟩, f0⟩, ⟨⟨3, ![1, a, b]⟩, f1⟩, ⟨⟨3, ![1, a, b]⟩, f2⟩, ⟨⟨3, ![1, a, b]⟩, f3⟩] h _ 0 (by simp) _ f0 rfl rfl 0 rfl (ix3 0 r k) (hi _) rfl
  | ⟨1, _⟩ => exact concatenate_apply_piece 0 [⟨⟨3, ![1, a, b]⟩, f0⟩, ⟨⟨3, ![1, a, b]⟩, f1⟩, ⟨⟨3, ![1, a, b]⟩, f2⟩, ⟨⟨3, ![1, a, b]⟩, f3⟩] h _ 1 (by simp) _ f1 rfl rfl 1 rfl (ix3 0 r k) (hi _) rfl
  | ⟨2, _⟩ => exact concatenate_apply_piece 0 [⟨⟨3, ![1, a, b]⟩, f0⟩, ⟨⟨3, ![1, a, b]⟩, f1⟩, ⟨⟨3, ![1, a, b]⟩, f2⟩, ⟨⟨3, ![1, a, b]⟩, f3⟩] h _ 2 (by simp) _ f2 rfl rfl 2 rfl (ix3 0 r k) (hi _) rfl
  | ⟨3, _⟩ => exact concatenate_apply_piece 0 [⟨⟨3, ![1, a, b]⟩, f0⟩, ⟨⟨3, ![1, a, b]⟩, f1⟩, ⟨⟨3, ![1, a, b]⟩, f2⟩, ⟨⟨3, ![1, a, b]⟩, f3⟩] h _ 3 (by simp) _ f3 rfl rfl 3 rfl (ix3 0 r k) (hi _) rfl

/-! ## The constant 1 and the sigmoid -/

/-- The binary32 word 0x3F800000 (sign 0, biased exponent 127, fraction 0) is the number 1. -/
theorem one_word : Ideal.ofBits .f32 0x3F800000#32 = 1 := by
  simp [Ideal.ofBits, Ideal.ieee, -EReal.coe_mul]; norm_num

/-- 1/(1 + e^(−z)), with both ones given by their words, is the logistic function at z. -/
theorem logistic_word (z : EReal) :
    FloatOps.hostDivf (F := Ideal) (φ := .f32) (FloatOps.ofBits .f32 0x3F800000#32)
        (FloatOps.addf (FloatOps.ofBits .f32 0x3F800000#32) (FloatOps.hostUnary .exp (FloatOps.hostNegf z)))
      = Ideal.logistic z := by
  rw [Ideal.ofBits_def, one_word]
  rfl

variable (x0 x1 x2 : (⟨S2048x1024, .f32⟩ : BufTy).Contents (Elt Ideal))
  (x3 x4 x5 x6 x7 x8 x9 x10 : (⟨S1024x1024, .f32⟩ : BufTy).Contents (Elt Ideal))
  (x11 x12 x13 x14 : (⟨S1024, .f32⟩ : BufTy).Contents (Elt Ideal))
  (x15 x16 x17 x18 x19 : (⟨S2048x1024, .f32⟩ : BufTy).Contents (Elt Ideal))

/-! ## The three stacks at an index -/

/-- Slot `g` of the stacked input-side weights is the `g`-th weight. -/
theorem v18_at (g : Fin 4) (k j : Fin 1024) :
    val_main_v18 (F := Ideal) x3 x4 x5 x6 (ix3 g k j) = pick4 g x3 x4 x5 x6 (ix2 k j) := by
  unfold val_main_v18
  rw [stack4_apply]
  match g with
  | ⟨0, _⟩ => exact (val_main_v14_apply x3 _).trans (congrArg x3 (eq_ix2_of _ k j rfl rfl))
  | ⟨1, _⟩ => exact (val_main_v15_apply x4 _).trans (congrArg x4 (eq_ix2_of _ k j rfl rfl))
  | ⟨2, _⟩ => exact (val_main_v16_apply x5 _).trans (congrArg x5 (eq_ix2_of _ k j rfl rfl))
  | ⟨3, _⟩ => exact (val_main_v17_apply x6 _).trans (congrArg x6 (eq_ix2_of _ k j rfl rfl))

/-- Slot `g` of the stacked recurrent weights is the `g`-th weight. -/
theorem v13_at (g : Fin 4) (k j : Fin 1024) :
    val_main_v13 (F := Ideal) x7 x8 x9 x10 (ix3 g k j) = pick4 g x7 x8 x9 x10 (ix2 k j) := by
  unfold val_main_v13
  rw [stack4_apply]
  match g with
  | ⟨0, _⟩ => exact (val_main_v9_apply x7 _).trans (congrArg x7 (eq_ix2_of _ k j rfl rfl))
  | ⟨1, _⟩ => exact (val_main_v10_apply x8 _).trans (congrArg x8 (eq_ix2_of _ k j rfl rfl))
  | ⟨2, _⟩ => exact (val_main_v11_apply x9 _).trans (congrArg x9 (eq_ix2_of _ k j rfl rfl))
  | ⟨3, _⟩ => exact (val_main_v12_apply x10 _).trans (congrArg x10 (eq_ix2_of _ k j rfl rfl))

/-- Slot `g` of the stacked masked states is h0 times the `g`-th mask, element by element. -/
theorem v8_at (g : Fin 4) (r : Fin 2048) (j : Fin 1024) :
    val_main_v8 (F := Ideal) x1 x15 x16 x17 x18 (ix3 g r j) = x1 (ix2 r j) * pick4 g x15 x16 x17 x18 (ix2 r j) := by
  unfold val_main_v8
  rw [stack4_apply]
  match g with
  | ⟨0, _⟩ => exact (val_main_v4_apply x1 x15 _).trans (congrArg (val_main_v0 (F := Ideal) x1 x15) (eq_ix2_of _ r j rfl rfl))
  | ⟨1, _⟩ => exact (val_main_v5_apply x1 x16 _).trans (congrArg (val_main_v1 (F := Ideal) x1 x16) (eq_ix2_of _ r j rfl rfl))
  | ⟨2, _⟩ => exact (val_main_v6_apply x1 x17 _).trans (congrArg (val_main_v2 (F := Ideal) x1 x17) (eq_ix2_of _ r j rfl rfl))
  | ⟨3, _⟩ => exact (val_main_v7_apply x1 x18 _).trans (congrArg (val_main_v3 (F := Ideal) x1 x18) (eq_ix2_of _ r j rfl rfl))

/-! ## The sum of the two batched products at (g, r, k) -/

/-- Σ_j x[r,j]·Wx_g[k,j] + Σ_j (h0[r,j]·M_g[r,j])·Wh_g[k,j]: the first product is computed with the weight on the
    left and transposed, so its summands are commuted; the second is in this order already. -/
theorem v22_at (g : Fin 4) (r : Fin 2048) (k : Fin 1024) :
    val_main_v22 (F := Ideal) x0 x1 x3 x4 x5 x6 x7 x8 x9 x10 x15 x16 x17 x18 (ix3 g r k)
      = (∑ j : Fin 1024, x0 (ix2 r j) * pick4 g x3 x4 x5 x6 (ix2 k j))
        + ∑ j : Fin 1024, (x1 (ix2 r j) * pick4 g x15 x16 x17 x18 (ix2 r j)) * pick4 g x7 x8 x9 x10 (ix2 k j) := by
  rw [val_main_v22_apply, val_main_v20_apply, val_main_v19_apply, val_main_v21_apply, Ideal.addf_def,
    show idx_main_v20 (ix3 g r k) = ix3 g k r from eq_ix3_of _ g k r rfl rfl rfl]
  refine congrArg₂ (· + ·) (Finset.sum_congr rfl fun j _ => ?_) (Finset.sum_congr rfl fun j _ => ?_)
  · rw [show lidx_main_v19 (ix3 g k r) j = ix3 g k j from eq_ix3_of _ g k j rfl rfl rfl,
      show ridx_main_v19 (ix3 g k r) j = ix2 r j from eq_ix2_of _ r j rfl rfl, v18_at]
    exact mul_comm _ _
  · rw [show lidx_main_v21 (ix3 g r k) j = ix3 g r j from eq_ix3_of _ g r j rfl rfl rfl,
      show ridx_main_v21 (ix3 g r k) j = ix3 g k j from eq_ix3_of _ g k j rfl rfl rfl, v8_at, v13_at]

/-! ## The four pre-activations -/

/-- Slot 0 of the sum, without its unit axis, plus the bias row: gate i's pre-activation. -/
theorem pre_i_at (r : Fin 2048) (k : Fin 1024) :
    val_main_v27 (F := Ideal) x0 x1 x3 x4 x5 x6 x7 x8 x9 x10 x11 x15 x16 x17 x18 (ix2 r k)
      = Cert.LstmSpec.gatePre x0 x1 x15 x3 x7 x11 r k := by
  rw [val_main_v27_apply, val_main_v24_apply, val_main_v23_apply, val_main_v26_apply, val_main_v25_apply,
    show idx_main_v23 (idx_main_v24 (ix2 r k)) = ix3 0 r k from
      eq_ix3_of _ 0 r k rfl (unflatten_row r k) (unflatten_col r k),
    show idx_main_v25 (idx_main_v26 (ix2 r k)) = ix1 k from eq_ix1_of _ k rfl,
    v22_at]
  rfl

/-- Slot 1 of the sum, without its unit axis, plus the bias row: gate f's pre-activation. -/
theorem pre_f_at (r : Fin 2048) (k : Fin 1024) :
    val_main_v38 (F := Ideal) x0 x1 x3 x4 x5 x6 x7 x8 x9 x10 x12 x15 x16 x17 x18 (ix2 r k)
      = Cert.LstmSpec.gatePre x0 x1 x16 x4 x8 x12 r k := by
  rw [val_main_v38_apply, val_main_v35_apply, val_main_v34_apply, val_main_v37_apply, val_main_v36_apply,
    show idx_main_v34 (idx_main_v35 (ix2 r k)) = ix3 1 r k from
      eq_ix3_of _ 1 r k rfl (unflatten_row r k) (unflatten_col r k),
    show idx_main_v36 (idx_main_v37 (ix2 r k)) = ix1 k from eq_ix1_of _ k rfl,
    v22_at]
  rfl

/-- Slot 2 of the sum, without its unit axis, plus the bias row: gate c's pre-activation. -/
theorem pre_c_at (r : Fin 2048) (k : Fin 1024) :
    val_main_v49 (F := Ideal) x0 x1 x3 x4 x5 x6 x7 x8 x9 x10 x13 x15 x16 x17 x18 (ix2 r k)
      = Cert.LstmSpec.gatePre x0 x1 x17 x5 x9 x13 r k := by
  rw [val_main_v49_apply, val_main_v46_apply, val_main_v45_apply, val_main_v48_apply, val_main_v47_apply,
    show idx_main_v45 (idx_main_v46 (ix2 r k)) = ix3 2 r k from
      eq_ix3_of _ 2 r k rfl (unflatten_row r k) (unflatten_col r k),
    show idx_main_v47 (idx_main_v48 (ix2 r k)) = ix1 k from eq_ix1_of _ k rfl,
    v22_at]
  rfl

/-- Slot 3 of the sum, without its unit axis, plus the bias row: gate o's pre-activation. -/
theorem pre_o_at (r : Fin 2048) (k : Fin 1024) :
    val_main_v56 (F := Ideal) x0 x1 x3 x4 x5 x6 x7 x8 x9 x10 x14 x15 x16 x17 x18 (ix2 r k)
      = Cert.LstmSpec.gatePre x0 x1 x18 x6 x10 x14 r k := by
  rw [val_main_v56_apply, val_main_v53_apply, val_main_v52_apply, val_main_v55_apply, val_main_v54_apply,
    show idx_main_v52 (idx_main_v53 (ix2 r k)) = ix3 3 r k from
      eq_ix3_of _ 3 r k rfl (unflatten_row r k) (unflatten_col r k),
    show idx_main_v54 (idx_main_v55 (ix2 r k)) = ix1 k from eq_ix1_of _ k rfl,
    v22_at]
  rfl

/-! ## The three sigmoid gates -/

/-- Gate i: the logistic function of its pre-activation. -/
theorem gate_i_at (r : Fin 2048) (k : Fin 1024) :
    val_main_v33 (F := Ideal) x0 x1 x3 x4 x5 x6 x7 x8 x9 x10 x11 x15 x16 x17 x18 (ix2 r k)
      = Ideal.logistic (Cert.LstmSpec.gatePre x0 x1 x15 x3 x7 x11 r k) := by
  rw [val_main_v33_apply, val_main_v32_apply, val_main_cst_0_apply, val_main_v31_apply, val_main_v30_apply,
    val_main_cst_apply, val_main_v29_apply, val_main_v28_apply, pre_i_at, logistic_word]

/-- Gate f: the logistic function of its pre-activation. -/
theorem gate_f_at (r : Fin 2048) (k : Fin 1024) :
    val_main_v44 (F := Ideal) x0 x1 x3 x4 x5 x6 x7 x8 x9 x10 x12 x15 x16 x17 x18 (ix2 r k)
      = Ideal.logistic (Cert.LstmSpec.gatePre x0 x1 x16 x4 x8 x12 r k) := by
  rw [val_main_v44_apply, val_main_v43_apply, val_main_cst_2_apply, val_main_v42_apply, val_main_v41_apply,
    val_main_cst_1_apply, val_main_v40_apply, val_main_v39_apply, pre_f_at, logistic_word]

/-- Gate o: the logistic function of its pre-activation. -/
theorem gate_o_at (r : Fin 2048) (k : Fin 1024) :
    val_main_v62 (F := Ideal) x0 x1 x3 x4 x5 x6 x7 x8 x9 x10 x14 x15 x16 x17 x18 (ix2 r k)
      = Ideal.logistic (Cert.LstmSpec.gatePre x0 x1 x18 x6 x10 x14 r k) := by
  rw [val_main_v62_apply, val_main_v61_apply, val_main_cst_4_apply, val_main_v60_apply, val_main_v59_apply,
    val_main_cst_3_apply, val_main_v58_apply, val_main_v57_apply, pre_o_at, logistic_word]

/-! ## The new cell state and the new hidden state -/

/-- c1 = σ(pre_f)·c0 + σ(pre_i)·(tanh(pre_c)·M_cell), in the specification's grouping. -/
theorem v65_at (r : Fin 2048) (k : Fin 1024) :
    val_main_v65 (F := Ideal) x0 x1 x2 x3 x4 x5 x6 x7 x8 x9 x10 x11 x12 x13 x15 x16 x17 x18 x19 (ix2 r k)
      = Cert.LstmSpec.cellAt ⟨x0, x1, x2, x3, x4, x5, x6, x7, x8, x9, x10, x11, x12, x13, x14, x15, x16, x17, x18, x19⟩ r k := by
  rw [val_main_v65_apply, val_main_v63_apply, val_main_v64_apply, val_main_v51_apply, val_main_v50_apply,
    gate_f_at, gate_i_at, pre_c_at]
  rfl

/-- h1 = σ(pre_o)·tanh(c1). -/
theorem v67_at (r : Fin 2048) (k : Fin 1024) :
    val_main_v67 (F := Ideal) x0 x1 x2 x3 x4 x5 x6 x7 x8 x9 x10 x11 x12 x13 x14 x15 x16 x17 x18 x19 (ix2 r k)
      = Cert.LstmSpec.hiddenAt ⟨x0, x1, x2, x3, x4, x5, x6, x7, x8, x9, x10, x11, x12, x13, x14, x15, x16, x17, x18, x19⟩ r k := by
  rw [val_main_v67_apply, val_main_v66_apply, gate_o_at, v65_at]
  rfl

/-- The cell-state array is the specification's. -/
theorem v65_fun :
    val_main_v65 (F := Ideal) x0 x1 x2 x3 x4 x5 x6 x7 x8 x9 x10 x11 x12 x13 x15 x16 x17 x18 x19
      = Cert.LstmSpec.cell ⟨x0, x1, x2, x3, x4, x5, x6, x7, x8, x9, x10, x11, x12, x13, x14, x15, x16, x17, x18, x19⟩ := by
  funext i
  obtain ⟨r, k, rfl⟩ : ∃ (r : Fin 2048) (k : Fin 1024), i = ix2 r k := ⟨i 0, i 1, eq_ix2 i⟩
  exact v65_at x0 x1 x2 x3 x4 x5 x6 x7 x8 x9 x10 x11 x12 x13 x14 x15 x16 x17 x18 x19 r k

/-- The hidden-state array is the specification's. -/
theorem v67_fun :
    val_main_v67 (F := Ideal) x0 x1 x2 x3 x4 x5 x6 x7 x8 x9 x10 x11 x12 x13 x14 x15 x16 x17 x18 x19
      = Cert.LstmSpec.hidden ⟨x0, x1, x2, x3, x4, x5, x6, x7, x8, x9, x10, x11, x12, x13, x14, x15, x16, x17, x18, x19⟩ := by
  funext i
  obtain ⟨r, k, rfl⟩ : ∃ (r : Fin 2048) (k : Fin 1024), i = ix2 r k := ⟨i 0, i 1, eq_ix2 i⟩
  exact v67_at x0 x1 x2 x3 x4 x5 x6 x7 x8 x9 x10 x11 x12 x13 x14 x15 x16 x17 x18 x19 r k

/-! ## The run, stated at the specification -/

/-- The reference's twenty argument arrays on core `c`, as the specification's record. -/
def inputsOf (m : (ℓ : Loc nD τ sig) → Buf (Elt Ideal) ℓ) (c : Dev nD) : Cert.LstmSpec.Inputs :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15),
   m ((c.tc : Thread nD τ).loc main_arg16),
   m ((c.tc : Thread nD τ).loc main_arg17),
   m ((c.tc : Thread nD τ).loc main_arg18),
   m ((c.tc : Thread nD τ).loc main_arg19)⟩

/-- The first result is the specification's hidden state of the arguments. -/
theorem hidden_eq (m : (ℓ : Loc nD τ sig) → Buf (Elt Ideal) ℓ) (c : Dev nD) :
    Cert.ReferenceIdeal.Value.res_main_v67 (F := Ideal) m c = Cert.LstmSpec.hidden (inputsOf m c) :=
  (Read.val_main_v67_eq m c).trans (v67_fun _ _ _ _ _ _ _ _ _ _ _ _ _ _ _ _ _ _ _ _)

/-- The second result is the specification's cell state of the arguments. -/
theorem cell_eq (m : (ℓ : Loc nD τ sig) → Buf (Elt Ideal) ℓ) (c : Dev nD) :
    Cert.ReferenceIdeal.Value.res_main_v65 (F := Ideal) m c = Cert.LstmSpec.cell (inputsOf m c) :=
  (Read.val_main_v65_eq m c).trans (v65_fun _ _ _ _ _ _ _ _ _ _ _ _ _ _ (m ((c.tc : Thread nD τ).loc main_arg14)) _ _ _ _ _)

/-- The reference's run, stated at the specification: every weakly fair execution terminates with the two results the
    specification's hidden and cell states of the launch arguments, and the arguments as launched. -/
theorem run_spec (m : (ℓ : Loc nD τ sig) → Buf (Elt Ideal) ℓ) (ρ : Dev nD → PrngReg) :
    θ_run Cert.ReferenceIdeal.defs (onTc (τ := τ) (main (F := Ideal))) ⟨m, fun _ => 0, ρ⟩ fun r => ∀ c : Dev nD,
      r.2.mem ((c.tc : Thread nD τ).loc main_v67) = Cert.LstmSpec.hidden (inputsOf m c)
      ∧ r.2.mem ((c.tc : Thread nD τ).loc main_v65) = Cert.LstmSpec.cell (inputsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run _ _ _).mono (fun _ h c => ⟨(h c).1.trans (hidden_eq m c), (h c).2.1.trans (cell_eq m c), (h c).2.2⟩)
    (Cert.ReferenceIdeal.Value.run (F := Ideal) m ρ)

end Cert.ReferenceIdeal.RefValue

end
-- ==== Proof.lean ====
/-
  An LSTM cell with per-gate dropout masks on the recurrent input and a mask on the candidate, batch 2048, 1024
  inputs and 1024 hidden units: a pipelined kernel over eight 256-row tiles against a plain array program.

  Both compute, per gate g ∈ {i, f, c, o},  pre_g = x·Wx_gᵀ + (h0∘mask_g)·Wh_gᵀ + b_g,  then
  c1 = σ(pre_f)·c0 + σ(pre_i)·(tanh(pre_c)·mask_cell)  and  h1 = σ(pre_o)·tanh(c1).  The kernel stacks the four
  input-side weight matrices into one [4096,1024] array and forms x·Wxᵀ for all gates in one product, slicing gate
  g's 1024 columns out of it; the array program stacks the weights and the masked states along a new leading axis
  and takes two batched products. At the exact reading (a float an extended real, a change of format the identity,
  a product accumulated from zero the plain sum, the logistic function 1/(1 + e^(−t)) whether named or spelt out)
  the two are the same function of the twenty arrays, entry by entry, with the same grouping of every sum and
  product; one product's factors are exchanged, nothing else, so nothing is assumed finite.

  The three frames: each kernel program is ten host lines that write fresh arrays, then one region that only reads
  its eight staged arguments and never touches the other twelve; the array program is a straight line of host
  operations. The kernel's idealization rewrote nothing, so its `preserves` claim is `True`.
-/
import proofs.«144616_j22445499089342_2_alg».proof.Defs
import proofs.«144616_j22445499089342_2_alg».proof.Proof.Gen.Kernel
import proofs.«144616_j22445499089342_2_alg».proof.Proof.Gen.KernelIdeal
import proofs.«144616_j22445499089342_2_alg».proof.Proof.Gen.ReferenceIdeal
import proofs.«144616_j22445499089342_2_alg».proof.Proof.Gen.Pre_finite_inputs
import proofs.«144616_j22445499089342_2_alg».proof.Proof.BitsRun
import proofs.«144616_j22445499089342_2_alg».proof.Proof.IdealValue
import proofs.«144616_j22445499089342_2_alg».proof.Proof.RefStages
import Idealize.ShloMosaic.Adequacy
import Idealize.ShloMosaic.Init

noncomputable section

namespace Cert.Proof

open Idealize.ShloMosaic Idealize.SL.Sem

/-- The word-level kernel runs to the end and leaves its arguments as launched. -/
theorem frame_kernel : Cert.frame_Kernel := fun m ρ _ => Cert.Kernel.Cell.frame m ρ

/-- So does the kernel at the exact reading. -/
theorem frame_kernelIdeal : Cert.frame_KernelIdeal := fun m ρ _ => Cert.KernelIdeal.Cell.frame m ρ

/-- The array program's run, its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the twenty arguments, both programs end with the specification's hidden and cell
    states of those arguments. -/
theorem algebraic : Cert.algebraic_KernelIdeal_ReferenceIdeal := by
  intro m ρ m' ρ' _ hagree
  refine ⟨fun c => Cert.LstmSpec.hidden (Cert.KernelIdeal.Cell.inputsOf m c), fun c => Cert.LstmSpec.cell (Cert.KernelIdeal.Cell.inputsOf m c),
    Cert.KernelIdeal.Cell.run_spec m ρ, ?_⟩
  refine (θ_run Cert.ReferenceIdeal.defs _ _).mono (fun _ h c => ?_) (Cert.ReferenceIdeal.RefValue.run_spec m' ρ')
  have e : Cert.ReferenceIdeal.RefValue.inputsOf m' c = Cert.KernelIdeal.Cell.inputsOf m c := by
    obtain ⟨h0, h1, h2, h3, h4, h5, h6, h7, h8, h9, h10, h11, h12, h13, h14, h15, h16, h17, h18, h19⟩ := hagree c
    unfold Cert.ReferenceIdeal.RefValue.inputsOf Cert.KernelIdeal.Cell.inputsOf
    rw [h0, h1, h2, h3, h4, h5, h6, h7, h8, h9, h10, h11, h12, h13, h14, h15, h16, h17, h18, h19]
  have h' := h c
  rw [e] at h'
  exact h'

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_reference, Cert.Proof.preserves, Cert.Proof.algebraic⟩

end
